-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x57x57x512 : Shape := ⟨4, ![128, 57, 57, 512]⟩
abbrev S_ : Shape := ⟨0, ![]⟩

class Facts : Prop where
  bcast_S_S128x57x57x512 : S_.BroadcastsInDim S128x57x57x512 (![] : Fin 0 → Fin S128x57x57x512.rank)
  reducesTo_S128x57x57x512_S_d0_1_2_3 : S128x57x57x512.ReducesTo [0, 1, 2, 3] S_
  h_S_ : 0 < S_.numel

variable [Facts]

def fn {F : FTy → Type} [FloatOps F] (main_arg0 : FVec F S128x57x57x512 .f32) : IVec S_ 1 :=
  let main_v0 : FVec F S128x57x57x512 .f32 := Host.absf main_arg0
  let main_cst : FVec F S_ .f32 := constant S_ .f32 0x7F800000#32
  let main_v1 : FVec F S128x57x57x512 .f32 := broadcastInDim S128x57x57x512 ![] bcast_S_S128x57x57x512 main_cst
  let main_v2 : IVec S128x57x57x512 1 := cmpf .olt main_v0 main_v1
  let main_c : IVec S_ 1 := constantI S_ 1 1#1
  let main_v3 : IVec S_ 1 := (fun x v => Host.reduce IntOp.andi x v reducesTo_S128x57x57x512_S_d0_1_2_3 h_S_) main_v2 main_c
  main_v3
-- ==== Kernel.lean ====
abbrev S128x57x57x512 : Shape := ⟨4, ![128, 57, 57, 512]⟩
abbrev S128x7x7x512 : Shape := ⟨4, ![128, 7, 7, 512]⟩
abbrev S8x57x57x128 : Shape := ⟨4, ![8, 57, 57, 128]⟩
abbrev S8x7x7x128 : Shape := ⟨4, ![8, 7, 7, 128]⟩
abbrev S8x8x57x128 : Shape := ⟨4, ![8, 8, 57, 128]⟩
abbrev S8x57x128 : Shape := ⟨3, ![8, 57, 128]⟩
abbrev S8x1x57x128 : Shape := ⟨4, ![8, 1, 57, 128]⟩
abbrev S8x9x57x128 : Shape := ⟨4, ![8, 9, 57, 128]⟩
abbrev S8x7x57x128 : Shape := ⟨4, ![8, 7, 57, 128]⟩
abbrev S8x7x8x128 : Shape := ⟨4, ![8, 7, 8, 128]⟩
abbrev S8x7x128 : Shape := ⟨3, ![8, 7, 128]⟩
abbrev S8x7x1x128 : Shape := ⟨4, ![8, 7, 1, 128]⟩
abbrev S8x7x9x128 : Shape := ⟨4, ![8, 7, 9, 128]⟩

abbrev nBuf : Space → Nat
  | .hbm => 2
  | .vmem => 4
  | .smem => 0
  | _ => 0

abbrev bufTy : (tb : Table) → Fin (tcTables nBuf tb) → BufTy
  | .hbm, ⟨0, _⟩ => ⟨S128x57x57x512, .f32⟩
  | .hbm, ⟨1, _⟩ => ⟨S128x7x7x512, .f32⟩
  | .local _ .vmem, ⟨0, _⟩ => ⟨S8x57x57x128, .f32⟩
  | .local _ .vmem, ⟨1, _⟩ => ⟨S8x57x57x128, .f32⟩
  | .local _ .vmem, ⟨2, _⟩ => ⟨S8x7x7x128, .f32⟩
  | .local _ .vmem, ⟨3, _⟩ => ⟨S8x7x7x128, .f32⟩
  | _, _ => ⟨S128x57x57x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x57x57x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x7x7x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x57x57x128_S8x8x57x128_0_0_0_0 : ∀ a, (![0, 0, 0, 0] : Fin 4 → Nat) a + S8x8x57x128.size a ≤ S8x57x57x128.size a
  h_S8x8x57x128 : 0 < S8x8x57x128.numel
  reduces_S8x8x57x128_S8x57x128 : S8x8x57x128.Reduces [1] S8x57x128
  shapeCasts_S8x57x128_S8x1x57x128 : S8x57x128.ShapeCasts S8x1x57x128
  inb_S8x57x57x128_S8x8x57x128_0_8_0_0 : ∀ a, (![0, 8, 0, 0] : Fin 4 → Nat) a + S8x8x57x128.size a ≤ S8x57x57x128.size a
  inb_S8x57x57x128_S8x8x57x128_0_16_0_0 : ∀ a, (![0, 16, 0, 0] : Fin 4 → Nat) a + S8x8x57x128.size a ≤ S8x57x57x128.size a
  inb_S8x57x57x128_S8x8x57x128_0_24_0_0 : ∀ a, (![0, 24, 0, 0] : Fin 4 → Nat) a + S8x8x57x128.size a ≤ S8x57x57x128.size a
  inb_S8x57x57x128_S8x8x57x128_0_32_0_0 : ∀ a, (![0, 32, 0, 0] : Fin 4 → Nat) a + S8x8x57x128.size a ≤ S8x57x57x128.size a
  inb_S8x57x57x128_S8x8x57x128_0_40_0_0 : ∀ a, (![0, 40, 0, 0] : Fin 4 → Nat) a + S8x8x57x128.size a ≤ S8x57x57x128.size a
  inb_S8x57x57x128_S8x9x57x128_0_48_0_0 : ∀ a, (![0, 48, 0, 0] : Fin 4 → Nat) a + S8x9x57x128.size a ≤ S8x57x57x128.size a
  h_S8x9x57x128 : 0 < S8x9x57x128.numel
  reduces_S8x9x57x128_S8x57x128 : S8x9x57x128.Reduces [1] S8x57x128
  concatenates_S8x1x57x128_S8x1x57x128_S8x1x57x128_S8x1x57x128_S8x1x57x128_S8x1x57x128_S8x1x57x128_S8x7x57x128_d1 : Shape.Concatenates [S8x1x57x128, S8x1x57x128, S8x1x57x128, S8x1x57x128, S8x1x57x128, S8x1x57x128, S8x1x57x128] S8x7x57x128 1
  slices_S8x7x57x128_o0_0_0_0_S8x7x8x128 : S8x7x57x128.Slices ![0, 0, 0, 0] S8x7x8x128
  reduces_S8x7x8x128_S8x7x128 : S8x7x8x128.Reduces [2] S8x7x128
  shapeCasts_S8x7x128_S8x7x1x128 : S8x7x128.ShapeCasts S8x7x1x128
  slices_S8x7x57x128_o0_0_8_0_S8x7x8x128 : S8x7x57x128.Slices ![0, 0, 8, 0] S8x7x8x128
  slices_S8x7x57x128_o0_0_16_0_S8x7x8x128 : S8x7x57x128.Slices ![0, 0, 16, 0] S8x7x8x128
  slices_S8x7x57x128_o0_0_24_0_S8x7x8x128 : S8x7x57x128.Slices ![0, 0, 24, 0] S8x7x8x128
  slices_S8x7x57x128_o0_0_32_0_S8x7x8x128 : S8x7x57x128.Slices ![0, 0, 32, 0] S8x7x8x128
  slices_S8x7x57x128_o0_0_40_0_S8x7x8x128 : S8x7x57x128.Slices ![0, 0, 40, 0] S8x7x8x128
  slices_S8x7x57x128_o0_0_48_0_S8x7x9x128 : S8x7x57x128.Slices ![0, 0, 48, 0] S8x7x9x128
  reduces_S8x7x9x128_S8x7x128 : S8x7x9x128.Reduces [2] S8x7x128
  concatenates_S8x7x1x128_S8x7x1x128_S8x7x1x128_S8x7x1x128_S8x7x1x128_S8x7x1x128_S8x7x1x128_S8x7x7x128_d2 : Shape.Concatenates [S8x7x1x128, S8x7x1x128, S8x7x1x128, S8x7x1x128, S8x7x1x128, S8x7x1x128, S8x7x1x128] S8x7x7x128 2
  inb_S8x7x7x128_S8x7x7x128_0_0_0_0 : ∀ a, (![0, 0, 0, 0] : Fin 4 → Nat) a + S8x7x7x128.size a ≤ S8x7x7x128.size a
  h_S8x7x7x128 : 0 < S8x7x7x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x57x57x128.size a ≤ S128x57x57x512.size a
  hwx0_0 : ∀ i : grid0.Coords, EltTy.bits .f32 = 32 ∨ (Rect.block (s := S128x57x57x512) S8x57x57x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x7x7x128.size a ≤ S128x7x7x512.size a
  hwx0_1 : ∀ i : grid0.Coords, EltTy.bits .f32 = 32 ∨ (Rect.block (s := S128x7x7x512) S8x7x7x128.size (cc0_transform_1 i) (hinb0_1 i)).WholeWords (EltTy.packing .f32)

variable [Facts₀]

abbrev win0_0 : Pipeline.Window sig grid0 :=
  Pipeline.Window.ofSpec (Memref.whole main_arg0) S8x57x57x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x7x7x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x57x57x512 : Shape := ⟨4, ![128, 57, 57, 512]⟩
abbrev S128x8x57x512 : Shape := ⟨4, ![128, 8, 57, 512]⟩
abbrev S_ : Shape := ⟨0, ![]⟩
abbrev S128x57x512 : Shape := ⟨3, ![128, 57, 512]⟩
abbrev S128x1x57x512 : Shape := ⟨4, ![128, 1, 57, 512]⟩
abbrev S128x9x57x512 : Shape := ⟨4, ![128, 9, 57, 512]⟩
abbrev S128x7x57x512 : Shape := ⟨4, ![128, 7, 57, 512]⟩
abbrev S128x7x8x512 : Shape := ⟨4, ![128, 7, 8, 512]⟩
abbrev S128x7x512 : Shape := ⟨3, ![128, 7, 512]⟩
abbrev S128x7x1x512 : Shape := ⟨4, ![128, 7, 1, 512]⟩
abbrev S128x7x9x512 : Shape := ⟨4, ![128, 7, 9, 512]⟩
abbrev S128x7x7x512 : Shape := ⟨4, ![128, 7, 7, 512]⟩

abbrev nBuf : Space → Nat
  | .hbm => 59
  | .vmem => 0
  | .smem => 0
  | _ => 0

abbrev bufTy : (tb : Table) → Fin (tcTables nBuf tb) → BufTy
  | .hbm, ⟨0, _⟩ => ⟨S128x57x57x512, .f32⟩
  | .hbm, ⟨1, _⟩ => ⟨S128x8x57x512, .f32⟩
  | .hbm, ⟨2, _⟩ => ⟨S_, .f32⟩
  | .hbm, ⟨3, _⟩ => ⟨S128x57x512, .f32⟩
  | .hbm, ⟨4, _⟩ => ⟨S128x1x57x512, .f32⟩
  | .hbm, ⟨5, _⟩ => ⟨S128x8x57x512, .f32⟩
  | .hbm, ⟨6, _⟩ => ⟨S_, .f32⟩
  | .hbm, ⟨7, _⟩ => ⟨S128x57x512, .f32⟩
  | .hbm, ⟨8, _⟩ => ⟨S128x1x57x512, .f32⟩
  | .hbm, ⟨9, _⟩ => ⟨S128x8x57x512, .f32⟩
  | .hbm, ⟨10, _⟩ => ⟨S_, .f32⟩
  | .hbm, ⟨11, _⟩ => ⟨S128x57x512, .f32⟩
  | .hbm, ⟨12, _⟩ => ⟨S128x1x57x512, .f32⟩
  | .hbm, ⟨13, _⟩ => ⟨S128x8x57x512, .f32⟩
  | .hbm, ⟨14, _⟩ => ⟨S_, .f32⟩
  | .hbm, ⟨15, _⟩ => ⟨S128x57x512, .f32⟩
  | .hbm, ⟨16, _⟩ => ⟨S128x1x57x512, .f32⟩
  | .hbm, ⟨17, _⟩ => ⟨S128x8x57x512, .f32⟩
  | .hbm, ⟨18, _⟩ => ⟨S_, .f32⟩
  | .hbm, ⟨19, _⟩ => ⟨S128x57x512, .f32⟩
  | .hbm, ⟨20, _⟩ => ⟨S128x1x57x512, .f32⟩
  | .hbm, ⟨21, _⟩ => ⟨S128x8x57x512, .f32⟩
  | .hbm, ⟨22, _⟩ => ⟨S_, .f32⟩
  | .hbm, ⟨23, _⟩ => ⟨S128x57x512, .f32⟩
  | .hbm, ⟨24, _⟩ => ⟨S128x1x57x512, .f32⟩
  | .hbm, ⟨25, _⟩ => ⟨S128x9x57x512, .f32⟩
  | .hbm, ⟨26, _⟩ => ⟨S_, .f32⟩
  | .hbm, ⟨27, _⟩ => ⟨S128x57x512, .f32⟩
  | .hbm, ⟨28, _⟩ => ⟨S128x1x57x512, .f32⟩
  | .hbm, ⟨29, _⟩ => ⟨S128x7x57x512, .f32⟩
  | .hbm, ⟨30, _⟩ => ⟨S128x7x8x512, .f32⟩
  | .hbm, ⟨31, _⟩ => ⟨S_, .f32⟩
  | .hbm, ⟨32, _⟩ => ⟨S128x7x512, .f32⟩
  | .hbm, ⟨33, _⟩ => ⟨S128x7x1x512, .f32⟩
  | .hbm, ⟨34, _⟩ => ⟨S128x7x8x512, .f32⟩
  | .hbm, ⟨35, _⟩ => ⟨S_, .f32⟩
  | .hbm, ⟨36, _⟩ => ⟨S128x7x512, .f32⟩
  | .hbm, ⟨37, _⟩ => ⟨S128x7x1x512, .f32⟩
  | .hbm, ⟨38, _⟩ => ⟨S128x7x8x512, .f32⟩
  | .hbm, ⟨39, _⟩ => ⟨S_, .f32⟩
  | .hbm, ⟨40, _⟩ => ⟨S128x7x512, .f32⟩
  | .hbm, ⟨41, _⟩ => ⟨S128x7x1x512, .f32⟩
  | .hbm, ⟨42, _⟩ => ⟨S128x7x8x512, .f32⟩
  | .hbm, ⟨43, _⟩ => ⟨S_, .f32⟩
  | .hbm, ⟨44, _⟩ => ⟨S128x7x512, .f32⟩
  | .hbm, ⟨45, _⟩ => ⟨S128x7x1x512, .f32⟩
  | .hbm, ⟨46, _⟩ => ⟨S128x7x8x512, .f32⟩
  | .hbm, ⟨47, _⟩ => ⟨S_, .f32⟩
  | .hbm, ⟨48, _⟩ => ⟨S128x7x512, .f32⟩
  | .hbm, ⟨49, _⟩ => ⟨S128x7x1x512, .f32⟩
  | .hbm, ⟨50, _⟩ => ⟨S128x7x8x512, .f32⟩
  | .hbm, ⟨51, _⟩ => ⟨S_, .f32⟩
  | .hbm, ⟨52, _⟩ => ⟨S128x7x512, .f32⟩
  | .hbm, ⟨53, _⟩ => ⟨S128x7x1x512, .f32⟩
  | .hbm, ⟨54, _⟩ => ⟨S128x7x9x512, .f32⟩
  | .hbm, ⟨55, _⟩ => ⟨S_, .f32⟩
  | .hbm, ⟨56, _⟩ => ⟨S128x7x512, .f32⟩
  | .hbm, ⟨57, _⟩ => ⟨S128x7x1x512, .f32⟩
  | .hbm, ⟨58, _⟩ => ⟨S128x7x7x512, .f32⟩
  | _, _ => ⟨S128x57x57x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_10 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_12 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  slices_S128x57x57x512_S128x8x57x512_0_0_0_0 : S128x57x57x512.Slices ![0, 0, 0, 0] S128x8x57x512
  reducesTo_S128x8x57x512_S128x57x512_d1 : S128x8x57x512.ReducesTo [1] S128x57x512
  h_S_ : 0 < S_.numel
  bcast_S128x57x512_S128x1x57x512_0_2_3 : S128x57x512.BroadcastsInDim S128x1x57x512 (![0, 2, 3] : Fin 3 → Fin S128x1x57x512.rank)
  slices_S128x57x57x512_S128x8x57x512_0_8_0_0 : S128x57x57x512.Slices ![0, 8, 0, 0] S128x8x57x512
  slices_S128x57x57x512_S128x8x57x512_0_16_0_0 : S128x57x57x512.Slices ![0, 16, 0, 0] S128x8x57x512
  slices_S128x57x57x512_S128x8x57x512_0_24_0_0 : S128x57x57x512.Slices ![0, 24, 0, 0] S128x8x57x512
  slices_S128x57x57x512_S128x8x57x512_0_32_0_0 : S128x57x57x512.Slices ![0, 32, 0, 0] S128x8x57x512
  slices_S128x57x57x512_S128x8x57x512_0_40_0_0 : S128x57x57x512.Slices ![0, 40, 0, 0] S128x8x57x512
  slices_S128x57x57x512_S128x9x57x512_0_48_0_0 : S128x57x57x512.Slices ![0, 48, 0, 0] S128x9x57x512
  reducesTo_S128x9x57x512_S128x57x512_d1 : S128x9x57x512.ReducesTo [1] S128x57x512
  concatenates_S128x1x57x512_S128x1x57x512_S128x1x57x512_S128x1x57x512_S128x1x57x512_S128x1x57x512_S128x1x57x512_S128x7x57x512_d1 : Shape.Concatenates [S128x1x57x512, S128x1x57x512, S128x1x57x512, S128x1x57x512, S128x1x57x512, S128x1x57x512, S128x1x57x512] S128x7x57x512 1
  slices_S128x7x57x512_S128x7x8x512_0_0_0_0 : S128x7x57x512.Slices ![0, 0, 0, 0] S128x7x8x512
  reducesTo_S128x7x8x512_S128x7x512_d2 : S128x7x8x512.ReducesTo [2] S128x7x512
  bcast_S128x7x512_S128x7x1x512_0_1_3 : S128x7x512.BroadcastsInDim S128x7x1x512 (![0, 1, 3] : Fin 3 → Fin S128x7x1x512.rank)
  slices_S128x7x57x512_S128x7x8x512_0_0_8_0 : S128x7x57x512.Slices ![0, 0, 8, 0] S128x7x8x512
  slices_S128x7x57x512_S128x7x8x512_0_0_16_0 : S128x7x57x512.Slices ![0, 0, 16, 0] S128x7x8x512
  slices_S128x7x57x512_S128x7x8x512_0_0_24_0 : S128x7x57x512.Slices ![0, 0, 24, 0] S128x7x8x512
  slices_S128x7x57x512_S128x7x8x512_0_0_32_0 : S128x7x57x512.Slices ![0, 0, 32, 0] S128x7x8x512
  slices_S128x7x57x512_S128x7x8x512_0_0_40_0 : S128x7x57x512.Slices ![0, 0, 40, 0] S128x7x8x512
  slices_S128x7x57x512_S128x7x9x512_0_0_48_0 : S128x7x57x512.Slices ![0, 0, 48, 0] S128x7x9x512
  reducesTo_S128x7x9x512_S128x7x512_d2 : S128x7x9x512.ReducesTo [2] S128x7x512
  concatenates_S128x7x1x512_S128x7x1x512_S128x7x1x512_S128x7x1x512_S128x7x1x512_S128x7x1x512_S128x7x1x512_S128x7x7x512_d2 : Shape.Concatenates [S128x7x1x512, S128x7x1x512, S128x7x1x512, S128x7x1x512, S128x7x1x512, S128x7x1x512, S128x7x1x512] S128x7x7x512 2

variable [Facts₀]

class Facts : Prop extends Facts₀ where

variable [Facts]
-- ==== Proof.Spec.lean ====
/-
  Max pooling over fixed bins, stated once for both programs.

  An axis of 57 points is cut into seven consecutive bins: six of 8 points (starting at 0, 8, …, 40) and a last
  one of 9 points (starting at 48). `binMax f i` is the maximum of `f` over bin `i`, taken as the fold of `max`
  from the value of the word `0xFF800000` (the floats' −∞, the neutral element both programs start from; the word
  is the same on both sides and is never evaluated). The pooled array at `(n, i, j, c)` is the maximum over the
  columns `w` of bin `j` of the maximum over the rows `h` of bin `i` of `x (n, h, w, c)`: rows first, then
  columns, exactly as both programs nest their reductions, so no exchange of maxima is needed.

  Both a `vector.multi_reduction <maximumf>` and a host `reduce` with a `maximum` body, read at one index over the
  extended reals, are such a fold over the reduced axis (`maxRed_apply`, `hostMax_apply`).
-/
import Idealize.ShloMosaic.PureOps.Ideal
import Idealize.ShloMosaic.PureOps.Ideal.Laws
import Idealize.ShloMosaic.PureOps.Reduce
import Idealize.ShloMosaic.Lib.ValueIdx

noncomputable section

namespace Cert.Pool

open Idealize.ShloMosaic Idealize.ShloMosaic.ValueIdx

/-- What every maximum starts from: the value of the word `0xFF800000`. -/
abbrev start : EReal := Ideal.ofBits .f32 0xFF800000#32

/-- The maximum of `f` over the `n` consecutive points from `off`. -/
def runMax (n off : Nat) (hb : off + n ≤ 57) (f : Fin 57 → EReal) : EReal :=
  (Finset.univ : Finset (Fin n)).fold max start fun k => f ⟨off + k.val, by have := k.isLt; omega⟩

/-- A fold of `max` from `start` over `n` values that are `f` at the points from `off` is that run's maximum. -/
theorem runMax_eq {n off : Nat} (hb : off + n ≤ 57) (f : Fin 57 → EReal) (g : Fin n → EReal)
    (h : ∀ k : Fin n, g k = f ⟨off + k.val, by have := k.isLt; omega⟩) :
    (Finset.univ : Finset (Fin n)).fold max start g = runMax n off hb f := by
  unfold runMax
  rw [show g = fun k : Fin n => f ⟨off + k.val, by have := k.isLt; omega⟩ from funext h]

/-- The maximum of `f` over bin `i` of the seven bins 8, 8, 8, 8, 8, 8, 9 of an axis of 57 points. -/
def binMax (f : Fin 57 → EReal) : Fin 7 → EReal
  | ⟨0, _⟩ => runMax 8 0 (by decide) f
  | ⟨1, _⟩ => runMax 8 8 (by decide) f
  | ⟨2, _⟩ => runMax 8 16 (by decide) f
  | ⟨3, _⟩ => runMax 8 24 (by decide) f
  | ⟨4, _⟩ => runMax 8 32 (by decide) f
  | ⟨5, _⟩ => runMax 8 40 (by decide) f
  | ⟨6, _⟩ => runMax 9 48 (by decide) f

theorem binMax_congr {f g : Fin 57 → EReal} (h : ∀ k, f k = g k) (i : Fin 7) : binMax f i = binMax g i := by
  rw [show f = g from funext h]

/-- The pooled value at `(n, i, j, c)` of an array `[N, 57, 57, C]`: over the columns of bin `j`, the maximum of the
    maxima over the rows of bin `i`. -/
def poolAt {N C : Nat} (x : (⟨4, ![N, 57, 57, C]⟩ : Shape).Idx → EReal) (n : Fin N) (i j : Fin 7) (c : Fin C) : EReal :=
  binMax (fun w => binMax (fun h => x (ix4 n h w c)) i) j

/-- The pooled value depends only on the column `(n, ·, ·, c)` of the array: two arrays that agree there, each at its
    own `(n, c)`, pool to the same value. -/
theorem poolAt_congr {N C N' C' : Nat} {x : (⟨4, ![N, 57, 57, C]⟩ : Shape).Idx → EReal}
    {x' : (⟨4, ![N', 57, 57, C']⟩ : Shape).Idx → EReal} {n : Fin N} {c : Fin C} {n' : Fin N'} {c' : Fin C'}
    (h : ∀ (hh w : Fin 57), x (ix4 n hh w c) = x' (ix4 n' hh w c')) (i j : Fin 7) :
    poolAt x n i j c = poolAt x' n' i j c' :=
  binMax_congr (fun w => binMax_congr (fun hh => h hh w) i) j

/-- The whole pooled array `[128, 7, 7, 512]` of an array `[128, 57, 57, 512]`. -/
def pooledArr (x : (⟨4, ![128, 57, 57, 512]⟩ : Shape).Idx → EReal) : (⟨4, ![128, 7, 7, 512]⟩ : Shape).Idx → EReal :=
  fun o => poolAt x (o 0) (o 1) (o 2) (o 3)

theorem pooledArr_ix4 (x : (⟨4, ![128, 57, 57, 512]⟩ : Shape).Idx → EReal) (n : Fin 128) (i j : Fin 7) (c : Fin 512) :
    pooledArr x (ix4 n i j c) = poolAt x n i j c := rfl

/-- A `vector.multi_reduction <maximumf>` over one axis from the word `0xFF800000`, read at an index: the fold of `max`
    from `start` over that axis's coordinates. -/
theorem maxRed_apply {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j
      = (Finset.univ : Finset (Fin (s.size a))).fold max start (fun k => src (h.lift j k)) :=
  Ideal.multiReduction_maximumf_single src _ h hφ hacc j

/-- The host's `reduce` with a `maximum` body over one axis from the constant `0xFF800000`, read at an index: the
    same fold. -/
theorem hostMax_apply {s t : Shape} {a : Fin s.rank} (x : s.Idx → Ideal .f32) (h' : s.ReducesTo [a] t) (h : s.Reduces [a] t)
    (hu : 0 < (⟨0, ![]⟩ : Shape).numel) (j : t.Idx) :
    Host.reduce (FloatOps.maximumf (F := Ideal) (φ := .f32)) x (constant (F := Ideal) ⟨0, ![]⟩ .f32 0xFF800000#32) h' hu j
      = (Finset.univ : Finset (Fin (s.size a))).fold max start (fun k => x (h.lift j k)) :=
  Host.reduce_eq_fold_single (FloatOps.maximumf (F := Ideal) (φ := .f32)) x _ h' h hu j

end Cert.Pool

end
-- ==== Proof.Stages.lean ====
/-
  One bin's maximum, read off each program's operations at an index.

  Both programs take a bin's maximum in the same three steps: cut the bin out of the axis (the kernel by a load of the
  staged block through a rectangle, or by a slice of a value; the reference by a slice), reduce with `max` over the cut
  axis from the word `0xFF800000`, and put a unit axis back where the reduced one was (the kernel by a shape cast, the
  reference by a broadcast with the unit axis left out of its dimensions). Read at an index whose unit coordinate is
  necessarily 0, each of these chains is `Cert.Pool.runMax`: the fold of `max` over the bin's points of the
  underlying array along that axis, the other three coordinates held.

  The lemmas are stated once per program and per axis, for a bin of any length `K` starting at any offset `off`:
  the six bins of 8 points and the last of 9 are all instances.
-/
import proofs.«114033_j47399259078942_2_alg».proof.Proof.Spec
import Idealize.ShloMosaic.Lib.Pipeline.Value

noncomputable section

namespace Cert.Pool

open Idealize.ShloMosaic Idealize.ShloMosaic.ValueIdx

/-! ## The kernel's block `[8, 57, 57, 128]` -/

/-- A load of the block through the rectangle of the `K` rows from `off` reads the block at those rows. -/
theorem ld_rows {K : Nat} (off : Nat) (B : Vec Ideal ⟨4, ![8, 57, 57, 128]⟩ .f32)
    (inb : ∀ a, (![0, off, 0, 0] : Fin 4 → Nat) a + (⟨4, ![8, K, 57, 128]⟩ : Shape).size a ≤ (⟨4, ![8, 57, 57, 128]⟩ : Shape).size a)
    (b : Fin 8) (k : Fin K) (w : Fin 57) (c : Fin 128) (hk : off + k.val < 57) :
    View.ld B (Rect.unit (s := ⟨4, ![8, 57, 57, 128]⟩) ![0, off, 0, 0] (⟨4, ![8, K, 57, 128]⟩ : Shape).size inb) (ix4 b k w c)
      = B (ix4 b ⟨off + k.val, hk⟩ w c) := by
  refine congrArg B (funext fun a => Fin.ext ?_)
  match a with
  | ⟨0, _⟩ => show 0 + 1 * b.val = b.val; omega
  | ⟨1, _⟩ => show off + 1 * k.val = off + k.val; omega
  | ⟨2, _⟩ => show 0 + 1 * w.val = w.val; omega
  | ⟨3, _⟩ => show 0 + 1 * c.val = c.val; omega

/-- Rows: the maximum over a bin of rows of a slab `P` of the block, with the unit axis put back, at `(b, 0, w, c)`. -/
theorem kRowStage {K : Nat} (off : Nat) (hb : off + K ≤ 57) (P : FVec Ideal ⟨4, ![8, K, 57, 128]⟩ .f32)
    (hR : (⟨4, ![8, K, 57, 128]⟩ : Shape).Reduces [1] ⟨3, ![8, 57, 128]⟩) (hφ : FKind.Formats .f32)
    (hacc : (0xFF800000#32 : BitVec 32) = FKind.maximumf.neutral .f32 hφ)
    (hC : (⟨3, ![8, 57, 128]⟩ : Shape).ShapeCasts ⟨4, ![8, 1, 57, 128]⟩)
    (f : Fin 57 → EReal) (b : Fin 8) (w : Fin 57) (c : Fin 128)
    (hP : ∀ k : Fin K, P (ix4 b k w c) = f ⟨off + k.val, by have := k.isLt; omega⟩)
    (y : (⟨4, ![8, 1, 57, 128]⟩ : Shape).Idx) (h0 : (y 0).val = b.val) (h2 : (y 2).val = w.val) (h3 : (y 3).val = c.val) :
    shapeCast ⟨4, ![8, 1, 57, 128]⟩ (multiReduction .maximumf [1] ⟨3, ![8, 57, 128]⟩ P 0xFF800000#32 hR hφ hacc) hC y
      = runMax K off hb f := by
  refine (shapeCast_apply _ hC y (ix3 b w c) ?_).trans ?_
  · rw [Shape.rowMajor_val_three, Shape.rowMajor_val_four]
    have h1 : (y 1).val < 1 := (y 1).isLt
    show (b.val * 57 + w.val) * 128 + c.val = (((y 0).val * 1 + (y 1).val) * 57 + (y 2).val) * 128 + (y 3).val
    omega
  refine (maxRed_apply P hR hφ hacc (ix3 b w c)).trans (runMax_eq hb f _ fun k => ?_)
  refine (congrArg P (funext fun a => Fin.ext ?_)).trans (hP k)
  match a with
  | ⟨0, _⟩ => rfl
  | ⟨1, _⟩ => rfl
  | ⟨2, _⟩ => rfl
  | ⟨3, _⟩ => rfl

/-- Columns: the maximum over a bin of columns of a value `X` of shape `[8, 7, 57, 128]`, with the unit axis put back,
    at `(b, i, 0, c)`. -/
theorem kColStage {K : Nat} (off : Nat) (hb : off + K ≤ 57) (X : FVec Ideal ⟨4, ![8, 7, 57, 128]⟩ .f32)
    (hS : (⟨4, ![8, 7, 57, 128]⟩ : Shape).Slices ![0, 0, off, 0] ⟨4, ![8, 7, K, 128]⟩)
    (hR : (⟨4, ![8, 7, K, 128]⟩ : Shape).Reduces [2] ⟨3, ![8, 7, 128]⟩) (hφ : FKind.Formats .f32)
    (hacc : (0xFF800000#32 : BitVec 32) = FKind.maximumf.neutral .f32 hφ)
    (hC : (⟨3, ![8, 7, 128]⟩ : Shape).ShapeCasts ⟨4, ![8, 7, 1, 128]⟩)
    (b : Fin 8) (i : Fin 7) (c : Fin 128)
    (y : (⟨4, ![8, 7, 1, 128]⟩ : Shape).Idx) (h0 : (y 0).val = b.val) (h1 : (y 1).val = i.val) (h3 : (y 3).val = c.val) :
    shapeCast ⟨4, ![8, 7, 1, 128]⟩ (multiReduction .maximumf [2] ⟨3, ![8, 7, 128]⟩
        (extractStridedSlice ⟨4, ![8, 7, K, 128]⟩ ![0, 0, off, 0] X hS) 0xFF800000#32 hR hφ hacc) hC y
      = runMax K off hb (fun w => X (ix4 b i w c)) := by
  refine (shapeCast_apply _ hC y (ix3 b i c) ?_).trans ?_
  · rw [Shape.rowMajor_val_three, Shape.rowMajor_val_four]
    have h2 : (y 2).val < 1 := (y 2).isLt
    show (b.val * 7 + i.val) * 128 + c.val = (((y 0).val * 7 + (y 1).val) * 1 + (y 2).val) * 128 + (y 3).val
    omega
  refine (maxRed_apply _ hR hφ hacc (ix3 b i c)).trans (runMax_eq hb _ _ fun k => ?_)
  refine extractStridedSlice_apply ![0, 0, off, 0] X hS _ (ix4 b i ⟨off + k.val, by have := k.isLt; omega⟩ c) fun a => ?_
  match a with
  | ⟨0, _⟩ => show b.val = 0 + b.val; omega
  | ⟨1, _⟩ => show i.val = 0 + i.val; omega
  | ⟨2, _⟩ => rfl
  | ⟨3, _⟩ => show c.val = 0 + c.val; omega

/-! ## The reference's array `[128, 57, 57, 512]` -/

/-- Rows: the maximum over a bin of rows of the array, the unit axis put back by a broadcast, at `(n, 0, w, c)`. -/
theorem rRowStage {K : Nat} (off : Nat) (hb : off + K ≤ 57) (x : FVec Ideal ⟨4, ![128, 57, 57, 512]⟩ .f32)
    (hS : (⟨4, ![128, 57, 57, 512]⟩ : Shape).Slices ![0, off, 0, 0] ⟨4, ![128, K, 57, 512]⟩)
    (hR' : (⟨4, ![128, K, 57, 512]⟩ : Shape).ReducesTo [1] ⟨3, ![128, 57, 512]⟩)
    (hR : (⟨4, ![128, K, 57, 512]⟩ : Shape).Reduces [1] ⟨3, ![128, 57, 512]⟩)
    (hu : 0 < (⟨0, ![]⟩ : Shape).numel)
    (hB : (⟨3, ![128, 57, 512]⟩ : Shape).BroadcastsInDim ⟨4, ![128, 1, 57, 512]⟩ (![0, 2, 3] : Fin 3 → Fin 4))
    (n : Fin 128) (w : Fin 57) (c : Fin 512)
    (y : (⟨4, ![128, 1, 57, 512]⟩ : Shape).Idx) (h0 : (y 0).val = n.val) (h2 : (y 2).val = w.val) (h3 : (y 3).val = c.val) :
    broadcastInDim ⟨4, ![128, 1, 57, 512]⟩ ![0, 2, 3] hB
        (Host.reduce (FloatOps.maximumf (F := Ideal) (φ := .f32))
          (extractStridedSlice ⟨4, ![128, K, 57, 512]⟩ ![0, off, 0, 0] x hS)
          (constant (F := Ideal) ⟨0, ![]⟩ .f32 0xFF800000#32) hR' hu) y
      = runMax K off hb (fun h => x (ix4 n h w c)) := by
  refine (broadcastInDim_apply _ hB _ y (ix3 n w c) fun a => ?_).trans ?_
  · match a with
    | ⟨0, _⟩ => show n.val = if (128 : Nat) = 1 then 0 else (y 0).val; rw [if_neg (by decide), h0]
    | ⟨1, _⟩ => show w.val = if (57 : Nat) = 1 then 0 else (y 2).val; rw [if_neg (by decide), h2]
    | ⟨2, _⟩ => show c.val = if (512 : Nat) = 1 then 0 else (y 3).val; rw [if_neg (by decide), h3]
  refine (hostMax_apply _ hR' hR hu (ix3 n w c)).trans (runMax_eq hb _ _ fun k => ?_)
  refine extractStridedSlice_apply ![0, off, 0, 0] x hS _ (ix4 n ⟨off + k.val, by have := k.isLt; omega⟩ w c) fun a => ?_
  match a with
  | ⟨0, _⟩ => show n.val = 0 + n.val; omega
  | ⟨1, _⟩ => rfl
  | ⟨2, _⟩ => show w.val = 0 + w.val; omega
  | ⟨3, _⟩ => show c.val = 0 + c.val; omega

/-- Columns: the maximum over a bin of columns of a value `X` of shape `[128, 7, 57, 512]`, the unit axis put back by
    a broadcast, at `(n, i, 0, c)`. -/
theorem rColStage {K : Nat} (off : Nat) (hb : off + K ≤ 57) (X : FVec Ideal ⟨4, ![128, 7, 57, 512]⟩ .f32)
    (hS : (⟨4, ![128, 7, 57, 512]⟩ : Shape).Slices ![0, 0, off, 0] ⟨4, ![128, 7, K, 512]⟩)
    (hR' : (⟨4, ![128, 7, K, 512]⟩ : Shape).ReducesTo [2] ⟨3, ![128, 7, 512]⟩)
    (hR : (⟨4, ![128, 7, K, 512]⟩ : Shape).Reduces [2] ⟨3, ![128, 7, 512]⟩)
    (hu : 0 < (⟨0, ![]⟩ : Shape).numel)
    (hB : (⟨3, ![128, 7, 512]⟩ : Shape).BroadcastsInDim ⟨4, ![128, 7, 1, 512]⟩ (![0, 1, 3] : Fin 3 → Fin 4))
    (n : Fin 128) (i : Fin 7) (c : Fin 512)
    (y : (⟨4, ![128, 7, 1, 512]⟩ : Shape).Idx) (h0 : (y 0).val = n.val) (h1 : (y 1).val = i.val) (h3 : (y 3).val = c.val) :
    broadcastInDim ⟨4, ![128, 7, 1, 512]⟩ ![0, 1, 3] hB
        (Host.reduce (FloatOps.maximumf (F := Ideal) (φ := .f32))
          (extractStridedSlice ⟨4, ![128, 7, K, 512]⟩ ![0, 0, off, 0] X hS)
          (constant (F := Ideal) ⟨0, ![]⟩ .f32 0xFF800000#32) hR' hu) y
      = runMax K off hb (fun w => X (ix4 n i w c)) := by
  refine (broadcastInDim_apply _ hB _ y (ix3 n i c) fun a => ?_).trans ?_
  · match a with
    | ⟨0, _⟩ => show n.val = if (128 : Nat) = 1 then 0 else (y 0).val; rw [if_neg (by decide), h0]
    | ⟨1, _⟩ => show i.val = if (7 : Nat) = 1 then 0 else (y 1).val; rw [if_neg (by decide), h1]
    | ⟨2, _⟩ => show c.val = if (512 : Nat) = 1 then 0 else (y 3).val; rw [if_neg (by decide), h3]
  refine (hostMax_apply _ hR' hR hu (ix3 n i c)).trans (runMax_eq hb _ _ fun k => ?_)
  refine extractStridedSlice_apply ![0, 0, off, 0] X hS _ (ix4 n i ⟨off + k.val, by have := k.isLt; omega⟩ c) fun a => ?_
  match a with
  | ⟨0, _⟩ => show n.val = 0 + n.val; omega
  | ⟨1, _⟩ => show i.val = 0 + i.val; omega
  | ⟨2, _⟩ => rfl
  | ⟨3, _⟩ => show c.val = 0 + c.val; omega

end Cert.Pool

end
-- ==== Proof.KernelBlock.lean ====
/-
  What the kernel's body leaves in its output block, index by index.

  The body loads the staged block `B : [8, 57, 57, 128]` as seven slabs of rows (8, …, 8, 9 rows), takes each slab's
  maximum over its rows, stacks the seven results along axis 1 (`rowMaxima`: `[8, 7, 57, 128]`, entry `(b, i, w, c)` the
  maximum of `B (b, ·, w, c)` over the rows of bin `i`), then cuts that value into seven groups of columns, takes each
  group's maximum over its columns and stacks those along axis 2. So the stored block at `(b, i, j, c)` is the
  maximum over the columns `w` of bin `j` of the maximum over the rows `h` of bin `i` of `B (b, h, w, c)`:
  `Cert.Pool.poolAt B b i j c`.
-/
import proofs.«114033_j47399259078942_2_alg».proof.Proof.Gen.KernelIdeal.Value
import proofs.«114033_j47399259078942_2_alg».proof.Proof.Stages

noncomputable section

namespace Cert.KernelIdeal.PoolBlock

open Cert.KernelIdeal Cert.KernelIdeal.Gen Idealize.ShloMosaic Idealize.ShloMosaic.TcCoe Idealize.SL.Sem
open Idealize.ShloMosaic.ValueIdx Cert.Pool

/-- The seven slabs' maxima over their rows, each with the reduced axis put back as a unit axis. -/
def rowSlab (P0 : Vec Ideal S8x8x57x128 .f32) (P1 : Vec Ideal S8x8x57x128 .f32) (P2 : Vec Ideal S8x8x57x128 .f32) (P3 : Vec Ideal S8x8x57x128 .f32) (P4 : Vec Ideal S8x8x57x128 .f32) (P5 : Vec Ideal S8x8x57x128 .f32) (P6 : Vec Ideal S8x9x57x128 .f32) : Fin 7 → Vec Ideal S8x1x57x128 .f32
  | ⟨0, _⟩ => shapeCast S8x1x57x128 (multiReduction (F := Ideal) .maximumf [1] S8x57x128 P0 0xFF800000#32 reduces_S8x8x57x128_S8x57x128 (.inl rfl) rfl) shapeCasts_S8x57x128_S8x1x57x128
  | ⟨1, _⟩ => shapeCast S8x1x57x128 (multiReduction (F := Ideal) .maximumf [1] S8x57x128 P1 0xFF800000#32 reduces_S8x8x57x128_S8x57x128 (.inl rfl) rfl) shapeCasts_S8x57x128_S8x1x57x128
  | ⟨2, _⟩ => shapeCast S8x1x57x128 (multiReduction (F := Ideal) .maximumf [1] S8x57x128 P2 0xFF800000#32 reduces_S8x8x57x128_S8x57x128 (.inl rfl) rfl) shapeCasts_S8x57x128_S8x1x57x128
  | ⟨3, _⟩ => shapeCast S8x1x57x128 (multiReduction (F := Ideal) .maximumf [1] S8x57x128 P3 0xFF800000#32 reduces_S8x8x57x128_S8x57x128 (.inl rfl) rfl) shapeCasts_S8x57x128_S8x1x57x128
  | ⟨4, _⟩ => shapeCast S8x1x57x128 (multiReduction (F := Ideal) .maximumf [1] S8x57x128 P4 0xFF800000#32 reduces_S8x8x57x128_S8x57x128 (.inl rfl) rfl) shapeCasts_S8x57x128_S8x1x57x128
  | ⟨5, _⟩ => shapeCast S8x1x57x128 (multiReduction (F := Ideal) .maximumf [1] S8x57x128 P5 0xFF800000#32 reduces_S8x8x57x128_S8x57x128 (.inl rfl) rfl) shapeCasts_S8x57x128_S8x1x57x128
  | ⟨6, _⟩ => shapeCast S8x1x57x128 (multiReduction (F := Ideal) .maximumf [1] S8x57x128 P6 0xFF800000#32 reduces_S8x9x57x128_S8x57x128 (.inl rfl) rfl) shapeCasts_S8x57x128_S8x1x57x128

/-- The seven stacked along axis 1: the block's maxima over each bin of rows. -/
def rowMaxima (P0 : Vec Ideal S8x8x57x128 .f32) (P1 : Vec Ideal S8x8x57x128 .f32) (P2 : Vec Ideal S8x8x57x128 .f32) (P3 : Vec Ideal S8x8x57x128 .f32) (P4 : Vec Ideal S8x8x57x128 .f32) (P5 : Vec Ideal S8x8x57x128 .f32) (P6 : Vec Ideal S8x9x57x128 .f32) : Vec Ideal S8x7x57x128 .f32 :=
  concatenate S8x7x57x128 1 [⟨S8x1x57x128, shapeCast S8x1x57x128 (multiReduction (F := Ideal) .maximumf [1] S8x57x128 P0 0xFF800000#32 reduces_S8x8x57x128_S8x57x128 (.inl rfl) rfl) shapeCasts_S8x57x128_S8x1x57x128⟩, ⟨S8x1x57x128, shapeCast S8x1x57x128 (multiReduction (F := Ideal) .maximumf [1] S8x57x128 P1 0xFF800000#32 reduces_S8x8x57x128_S8x57x128 (.inl rfl) rfl) shapeCasts_S8x57x128_S8x1x57x128⟩, ⟨S8x1x57x128, shapeCast S8x1x57x128 (multiReduction (F := Ideal) .maximumf [1] S8x57x128 P2 0xFF800000#32 reduces_S8x8x57x128_S8x57x128 (.inl rfl) rfl) shapeCasts_S8x57x128_S8x1x57x128⟩, ⟨S8x1x57x128, shapeCast S8x1x57x128 (multiReduction (F := Ideal) .maximumf [1] S8x57x128 P3 0xFF800000#32 reduces_S8x8x57x128_S8x57x128 (.inl rfl) rfl) shapeCasts_S8x57x128_S8x1x57x128⟩, ⟨S8x1x57x128, shapeCast S8x1x57x128 (multiReduction (F := Ideal) .maximumf [1] S8x57x128 P4 0xFF800000#32 reduces_S8x8x57x128_S8x57x128 (.inl rfl) rfl) shapeCasts_S8x57x128_S8x1x57x128⟩, ⟨S8x1x57x128, shapeCast S8x1x57x128 (multiReduction (F := Ideal) .maximumf [1] S8x57x128 P5 0xFF800000#32 reduces_S8x8x57x128_S8x57x128 (.inl rfl) rfl) shapeCasts_S8x57x128_S8x1x57x128⟩, ⟨S8x1x57x128, shapeCast S8x1x57x128 (multiReduction (F := Ideal) .maximumf [1] S8x57x128 P6 0xFF800000#32 reduces_S8x9x57x128_S8x57x128 (.inl rfl) rfl) shapeCasts_S8x57x128_S8x1x57x128⟩] concatenates_S8x1x57x128_S8x1x57x128_S8x1x57x128_S8x1x57x128_S8x1x57x128_S8x1x57x128_S8x1x57x128_S8x7x57x128_d1

/-- `rowMaxima` of the block's seven loaded slabs, at `(b, i, w, c)`: the maximum of `B (b, ·, w, c)` over the rows of bin `i`. -/
theorem rowMaxima_apply (B : Vec Ideal S8x57x57x128 .f32) (b : Fin 8) (i : Fin 7) (w : Fin 57) (c : Fin 128) :
    rowMaxima (View.ld B r0_0) (View.ld B r0_1) (View.ld B r0_2) (View.ld B r0_3) (View.ld B r0_4) (View.ld B r0_5) (View.ld B r0_6) (ix4 b i w c) = binMax (fun h => B (ix4 b h w c)) i := by
  unfold rowMaxima
  show concatenate S8x7x57x128 1 (List.ofFn fun n : Fin 7 => (⟨S8x1x57x128, rowSlab (View.ld B r0_0) (View.ld B r0_1) (View.ld B r0_2) (View.ld B r0_3) (View.ld B r0_4) (View.ld B r0_5) (View.ld B r0_6) n⟩ : (s : Shape) × (s.Idx → _))) _ (ix4 b i w c) = _
  refine (concatenate_ofFn_apply (t := S8x7x57x128) (s₁ := S8x1x57x128) (1 : Fin 4) (rowSlab (View.ld B r0_0) (View.ld B r0_1) (View.ld B r0_2) (View.ld B r0_3) (View.ld B r0_4) (View.ld B r0_5) (View.ld B r0_6)) _ rfl 1 rfl
    (ix4 b i w c) i (by show i.val / 1 = i.val; omega) (ix4 b (0 : Fin 1) w c) (by show (0 : Nat) = i.val % 1; omega)
    (fun a ha => by
      match a with
      | ⟨0, _⟩ => rfl
      | ⟨1, _⟩ => exact absurd rfl ha
      | ⟨2, _⟩ => rfl
      | ⟨3, _⟩ => rfl)).trans ?_
  match i with
  | ⟨0, _⟩ => exact kRowStage (K := 8) 0 (by decide) (View.ld B r0_0) _ _ _ _ (fun h => B (ix4 b h w c)) b w c (fun k => ld_rows 0 B _ b k w c _) (ix4 b (0 : Fin 1) w c) rfl rfl rfl
  | ⟨1, _⟩ => exact kRowStage (K := 8) 8 (by decide) (View.ld B r0_1) _ _ _ _ (fun h => B (ix4 b h w c)) b w c (fun k => ld_rows 8 B _ b k w c _) (ix4 b (0 : Fin 1) w c) rfl rfl rfl
  | ⟨2, _⟩ => exact kRowStage (K := 8) 16 (by decide) (View.ld B r0_2) _ _ _ _ (fun h => B (ix4 b h w c)) b w c (fun k => ld_rows 16 B _ b k w c _) (ix4 b (0 : Fin 1) w c) rfl rfl rfl
  | ⟨3, _⟩ => exact kRowStage (K := 8) 24 (by decide) (View.ld B r0_3) _ _ _ _ (fun h => B (ix4 b h w c)) b w c (fun k => ld_rows 24 B _ b k w c _) (ix4 b (0 : Fin 1) w c) rfl rfl rfl
  | ⟨4, _⟩ => exact kRowStage (K := 8) 32 (by decide) (View.ld B r0_4) _ _ _ _ (fun h => B (ix4 b h w c)) b w c (fun k => ld_rows 32 B _ b k w c _) (ix4 b (0 : Fin 1) w c) rfl rfl rfl
  | ⟨5, _⟩ => exact kRowStage (K := 8) 40 (by decide) (View.ld B r0_5) _ _ _ _ (fun h => B (ix4 b h w c)) b w c (fun k => ld_rows 40 B _ b k w c _) (ix4 b (0 : Fin 1) w c) rfl rfl rfl
  | ⟨6, _⟩ => exact kRowStage (K := 9) 48 (by decide) (View.ld B r0_6) _ _ _ _ (fun h => B (ix4 b h w c)) b w c (fun k => ld_rows 48 B _ b k w c _) (ix4 b (0 : Fin 1) w c) rfl rfl rfl

/-- The seven groups' maxima over their columns, each with the reduced axis put back as a unit axis. -/
def colSlab (P0 : Vec Ideal S8x8x57x128 .f32) (P1 : Vec Ideal S8x8x57x128 .f32) (P2 : Vec Ideal S8x8x57x128 .f32) (P3 : Vec Ideal S8x8x57x128 .f32) (P4 : Vec Ideal S8x8x57x128 .f32) (P5 : Vec Ideal S8x8x57x128 .f32) (P6 : Vec Ideal S8x9x57x128 .f32) : Fin 7 → Vec Ideal S8x7x1x128 .f32
  | ⟨0, _⟩ => shapeCast S8x7x1x128 (multiReduction (F := Ideal) .maximumf [2] S8x7x128 (extractStridedSlice S8x7x8x128 ![0, 0, 0, 0] (rowMaxima P0 P1 P2 P3 P4 P5 P6) slices_S8x7x57x128_o0_0_0_0_S8x7x8x128) 0xFF800000#32 reduces_S8x7x8x128_S8x7x128 (.inl rfl) rfl) shapeCasts_S8x7x128_S8x7x1x128
  | ⟨1, _⟩ => shapeCast S8x7x1x128 (multiReduction (F := Ideal) .maximumf [2] S8x7x128 (extractStridedSlice S8x7x8x128 ![0, 0, 8, 0] (rowMaxima P0 P1 P2 P3 P4 P5 P6) slices_S8x7x57x128_o0_0_8_0_S8x7x8x128) 0xFF800000#32 reduces_S8x7x8x128_S8x7x128 (.inl rfl) rfl) shapeCasts_S8x7x128_S8x7x1x128
  | ⟨2, _⟩ => shapeCast S8x7x1x128 (multiReduction (F := Ideal) .maximumf [2] S8x7x128 (extractStridedSlice S8x7x8x128 ![0, 0, 16, 0] (rowMaxima P0 P1 P2 P3 P4 P5 P6) slices_S8x7x57x128_o0_0_16_0_S8x7x8x128) 0xFF800000#32 reduces_S8x7x8x128_S8x7x128 (.inl rfl) rfl) shapeCasts_S8x7x128_S8x7x1x128
  | ⟨3, _⟩ => shapeCast S8x7x1x128 (multiReduction (F := Ideal) .maximumf [2] S8x7x128 (extractStridedSlice S8x7x8x128 ![0, 0, 24, 0] (rowMaxima P0 P1 P2 P3 P4 P5 P6) slices_S8x7x57x128_o0_0_24_0_S8x7x8x128) 0xFF800000#32 reduces_S8x7x8x128_S8x7x128 (.inl rfl) rfl) shapeCasts_S8x7x128_S8x7x1x128
  | ⟨4, _⟩ => shapeCast S8x7x1x128 (multiReduction (F := Ideal) .maximumf [2] S8x7x128 (extractStridedSlice S8x7x8x128 ![0, 0, 32, 0] (rowMaxima P0 P1 P2 P3 P4 P5 P6) slices_S8x7x57x128_o0_0_32_0_S8x7x8x128) 0xFF800000#32 reduces_S8x7x8x128_S8x7x128 (.inl rfl) rfl) shapeCasts_S8x7x128_S8x7x1x128
  | ⟨5, _⟩ => shapeCast S8x7x1x128 (multiReduction (F := Ideal) .maximumf [2] S8x7x128 (extractStridedSlice S8x7x8x128 ![0, 0, 40, 0] (rowMaxima P0 P1 P2 P3 P4 P5 P6) slices_S8x7x57x128_o0_0_40_0_S8x7x8x128) 0xFF800000#32 reduces_S8x7x8x128_S8x7x128 (.inl rfl) rfl) shapeCasts_S8x7x128_S8x7x1x128
  | ⟨6, _⟩ => shapeCast S8x7x1x128 (multiReduction (F := Ideal) .maximumf [2] S8x7x128 (extractStridedSlice S8x7x9x128 ![0, 0, 48, 0] (rowMaxima P0 P1 P2 P3 P4 P5 P6) slices_S8x7x57x128_o0_0_48_0_S8x7x9x128) 0xFF800000#32 reduces_S8x7x9x128_S8x7x128 (.inl rfl) rfl) shapeCasts_S8x7x128_S8x7x1x128

/-- What the body stores, as the tree of vector operations over the seven loaded slabs. -/
def stored (P0 : Vec Ideal S8x8x57x128 .f32) (P1 : Vec Ideal S8x8x57x128 .f32) (P2 : Vec Ideal S8x8x57x128 .f32) (P3 : Vec Ideal S8x8x57x128 .f32) (P4 : Vec Ideal S8x8x57x128 .f32) (P5 : Vec Ideal S8x8x57x128 .f32) (P6 : Vec Ideal S8x9x57x128 .f32) : Vec Ideal S8x7x7x128 .f32 :=
  concatenate S8x7x7x128 2 [⟨S8x7x1x128, shapeCast S8x7x1x128 (multiReduction (F := Ideal) .maximumf [2] S8x7x128 (extractStridedSlice S8x7x8x128 ![0, 0, 0, 0] (rowMaxima P0 P1 P2 P3 P4 P5 P6) slices_S8x7x57x128_o0_0_0_0_S8x7x8x128) 0xFF800000#32 reduces_S8x7x8x128_S8x7x128 (.inl rfl) rfl) shapeCasts_S8x7x128_S8x7x1x128⟩, ⟨S8x7x1x128, shapeCast S8x7x1x128 (multiReduction (F := Ideal) .maximumf [2] S8x7x128 (extractStridedSlice S8x7x8x128 ![0, 0, 8, 0] (rowMaxima P0 P1 P2 P3 P4 P5 P6) slices_S8x7x57x128_o0_0_8_0_S8x7x8x128) 0xFF800000#32 reduces_S8x7x8x128_S8x7x128 (.inl rfl) rfl) shapeCasts_S8x7x128_S8x7x1x128⟩, ⟨S8x7x1x128, shapeCast S8x7x1x128 (multiReduction (F := Ideal) .maximumf [2] S8x7x128 (extractStridedSlice S8x7x8x128 ![0, 0, 16, 0] (rowMaxima P0 P1 P2 P3 P4 P5 P6) slices_S8x7x57x128_o0_0_16_0_S8x7x8x128) 0xFF800000#32 reduces_S8x7x8x128_S8x7x128 (.inl rfl) rfl) shapeCasts_S8x7x128_S8x7x1x128⟩, ⟨S8x7x1x128, shapeCast S8x7x1x128 (multiReduction (F := Ideal) .maximumf [2] S8x7x128 (extractStridedSlice S8x7x8x128 ![0, 0, 24, 0] (rowMaxima P0 P1 P2 P3 P4 P5 P6) slices_S8x7x57x128_o0_0_24_0_S8x7x8x128) 0xFF800000#32 reduces_S8x7x8x128_S8x7x128 (.inl rfl) rfl) shapeCasts_S8x7x128_S8x7x1x128⟩, ⟨S8x7x1x128, shapeCast S8x7x1x128 (multiReduction (F := Ideal) .maximumf [2] S8x7x128 (extractStridedSlice S8x7x8x128 ![0, 0, 32, 0] (rowMaxima P0 P1 P2 P3 P4 P5 P6) slices_S8x7x57x128_o0_0_32_0_S8x7x8x128) 0xFF800000#32 reduces_S8x7x8x128_S8x7x128 (.inl rfl) rfl) shapeCasts_S8x7x128_S8x7x1x128⟩, ⟨S8x7x1x128, shapeCast S8x7x1x128 (multiReduction (F := Ideal) .maximumf [2] S8x7x128 (extractStridedSlice S8x7x8x128 ![0, 0, 40, 0] (rowMaxima P0 P1 P2 P3 P4 P5 P6) slices_S8x7x57x128_o0_0_40_0_S8x7x8x128) 0xFF800000#32 reduces_S8x7x8x128_S8x7x128 (.inl rfl) rfl) shapeCasts_S8x7x128_S8x7x1x128⟩, ⟨S8x7x1x128, shapeCast S8x7x1x128 (multiReduction (F := Ideal) .maximumf [2] S8x7x128 (extractStridedSlice S8x7x9x128 ![0, 0, 48, 0] (rowMaxima P0 P1 P2 P3 P4 P5 P6) slices_S8x7x57x128_o0_0_48_0_S8x7x9x128) 0xFF800000#32 reduces_S8x7x9x128_S8x7x128 (.inl rfl) rfl) shapeCasts_S8x7x128_S8x7x1x128⟩] concatenates_S8x7x1x128_S8x7x1x128_S8x7x1x128_S8x7x1x128_S8x7x1x128_S8x7x1x128_S8x7x1x128_S8x7x7x128_d2

/-- The body's payload is that tree. -/
theorem pay_eq (P0 : Vec Ideal S8x8x57x128 .f32) (P1 : Vec Ideal S8x8x57x128 .f32) (P2 : Vec Ideal S8x8x57x128 .f32) (P3 : Vec Ideal S8x8x57x128 .f32) (P4 : Vec Ideal S8x8x57x128 .f32) (P5 : Vec Ideal S8x8x57x128 .f32) (P6 : Vec Ideal S8x9x57x128 .f32) :
    k0_pay1 (k0_pay2 P0 P1 P2 P3 P4 P5 P6) (k0_pay3 P0 P1 P2 P3 P4 P5 P6) = stored P0 P1 P2 P3 P4 P5 P6 := rfl

/-- The stored block at `(b, i, j, c)` is the pooled value of the block there. -/
theorem stored_apply (B : Vec Ideal S8x57x57x128 .f32) (b : Fin 8) (i j : Fin 7) (c : Fin 128) :
    stored (View.ld B r0_0) (View.ld B r0_1) (View.ld B r0_2) (View.ld B r0_3) (View.ld B r0_4) (View.ld B r0_5) (View.ld B r0_6) (ix4 b i j c) = poolAt B b i j c := by
  unfold stored
  show concatenate S8x7x7x128 2 (List.ofFn fun n : Fin 7 => (⟨S8x7x1x128, colSlab (View.ld B r0_0) (View.ld B r0_1) (View.ld B r0_2) (View.ld B r0_3) (View.ld B r0_4) (View.ld B r0_5) (View.ld B r0_6) n⟩ : (s : Shape) × (s.Idx → _))) _ (ix4 b i j c) = _
  refine (concatenate_ofFn_apply (t := S8x7x7x128) (s₁ := S8x7x1x128) (2 : Fin 4) (colSlab (View.ld B r0_0) (View.ld B r0_1) (View.ld B r0_2) (View.ld B r0_3) (View.ld B r0_4) (View.ld B r0_5) (View.ld B r0_6)) _ rfl 1 rfl
    (ix4 b i j c) j (by show j.val / 1 = j.val; omega) (ix4 b i (0 : Fin 1) c) (by show (0 : Nat) = j.val % 1; omega)
    (fun a ha => by
      match a with
      | ⟨0, _⟩ => rfl
      | ⟨1, _⟩ => rfl
      | ⟨2, _⟩ => exact absurd rfl ha
      | ⟨3, _⟩ => rfl)).trans ?_
  unfold poolAt
  have hrow : ∀ w : Fin 57, rowMaxima (View.ld B r0_0) (View.ld B r0_1) (View.ld B r0_2) (View.ld B r0_3) (View.ld B r0_4) (View.ld B r0_5) (View.ld B r0_6) (ix4 b i w c) = binMax (fun h => B (ix4 b h w c)) i :=
    fun w => rowMaxima_apply B b i w c
  rw [← show (fun w : Fin 57 => rowMaxima (View.ld B r0_0) (View.ld B r0_1) (View.ld B r0_2) (View.ld B r0_3) (View.ld B r0_4) (View.ld B r0_5) (View.ld B r0_6) (ix4 b i w c)) = fun w => binMax (fun h => B (ix4 b h w c)) i from funext hrow]
  match j with
  | ⟨0, _⟩ => exact kColStage (K := 8) 0 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl
  | ⟨1, _⟩ => exact kColStage (K := 8) 8 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl
  | ⟨2, _⟩ => exact kColStage (K := 8) 16 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl
  | ⟨3, _⟩ => exact kColStage (K := 8) 24 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl
  | ⟨4, _⟩ => exact kColStage (K := 8) 32 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl
  | ⟨5, _⟩ => exact kColStage (K := 8) 40 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl
  | ⟨6, _⟩ => exact kColStage (K := 9) 48 (by decide) (rowMaxima (View.ld B r0_0) (View.ld B r0_1) (View.ld B r0_2) (View.ld B r0_3) (View.ld B r0_4) (View.ld B r0_5) (View.ld B r0_6)) _ _ _ _ _ b i c (ix4 b i (0 : Fin 1) c) rfl rfl rfl

theorem zero4 : (![0, 0, 0, 0] : Fin 4 → Nat) = fun _ => 0 := funext fun a => by fin_cases a <;> rfl

/-- ONE store through the whole output block leaves its payload: the canon of the body's one piece at an index of the
    block is the pooled value of the input block. -/
theorem block_eq (B : Vec Ideal S8x57x57x128 .f32) (b : Fin 8) (i j : Fin 7) (c : Fin 128) :
    out0_1 B (ix4 b i j c) = poolAt B b i j c := by
  unfold out0_1
  rw [View.canon_unit_zero zero4, pay_eq]
  exact stored_apply B b i j c

end Cert.KernelIdeal.PoolBlock

end
-- ==== Proof.KernelValue.lean ====
/-
  The kernel's output array after the run is the pooled array of its argument.

  The grid is 16 × 4: point `t` stages the input block of batch rows `8·t₀ … 8·t₀+7` and channels
  `128·t₁ … 128·t₁+127` (all 57 × 57 positions) and writes back the output block of the same batch rows and channels (all
  7 × 7 bins). The pooled value at `(n, i, j, c)` reads the argument only along `(n, ·, ·, c)`, which lies inside the
  one input block that holds `n` and `c`, so what point `t` writes back — the pooled value of its input block
  (KernelBlock.lean) — is block `t` of the pooled array of the whole argument; the 64 output blocks tile the output
  array, so after the run the array IS that pooled array.
-/
import proofs.«114033_j47399259078942_2_alg».proof.Proof.KernelBlock

noncomputable section

namespace Cert.KernelIdeal.PoolValue

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

/-- The two index maps over the 64 grid points: the input block moves with the output block on the batch and channel
    axes and stays at 0 on the two spatial axes, where the output block stays at 0 too; the batch block index is at most 15
    and the channel block index at most 3. -/
theorem idx_facts : ∀ t : Fin cfg0.N,
    win0_0.index t (0 : Fin 4) = win0_1.index t (0 : Fin 4) ∧ win0_0.index t (1 : Fin 4) = 0
    ∧ win0_0.index t (2 : Fin 4) = 0 ∧ win0_0.index t (3 : Fin 4) = win0_1.index t (3 : Fin 4)
    ∧ win0_1.index t (1 : Fin 4) = 0 ∧ win0_1.index t (2 : Fin 4) = 0
    ∧ win0_1.index t (0 : Fin 4) ≤ 15 ∧ win0_1.index t (3 : Fin 4) ≤ 3 :=
  (by decide +kernel : ∀ t : Fin grid0.N, _)

/-- Every pair of a batch block and a channel block is some point's output block. -/
theorem idx_onto : ∀ (q0 : Fin 16) (q3 : Fin 4), ∃ t : Fin cfg0.N, win0_1.index t = ![q0.val, 0, 0, q3.val] :=
  (by decide +kernel : ∀ (q0 : Fin 16) (q3 : Fin 4), ∃ t : Fin grid0.N, win0_1.index t = ![q0.val, 0, 0, q3.val])

/-- The input block at point `t`, read at `(b, h, w, cc)`, is the argument at the batch row and channel the OUTPUT block's
    element `(b, ·, ·, cc)` sits at, and at `(h, w)`. -/
theorem iblk_apply (c : Dev nD) (t : Fin cfg0.N) (b : Fin 8) (i j : Fin 7) (cc : Fin 128) (hh w : Fin 57) :
    iblk m c 0 t (ix4 b hh w cc)
      = V m c main_arg0 (ix4 (((cfg0.win 1).blk t).view.emb (ix4 b i j cc) 0) hh w (((cfg0.win 1).blk t).view.emb (ix4 b i j cc) 3)) := by
  obtain ⟨e0, e1, e2, e3, -, -, -, -⟩ := idx_facts t
  show V m c main_arg0 (((cfg0.win 0).blk t).view.emb (ix4 b hh w cc)) = _
  refine congrArg (V m c main_arg0) (funext fun a => Fin.ext ?_)
  match a with
  | ⟨0, _⟩ => show win0_0.index t (0 : Fin 4) * 8 + 1 * b.val = win0_1.index t (0 : Fin 4) * 8 + 1 * b.val; omega
  | ⟨1, _⟩ => show win0_0.index t (1 : Fin 4) * 57 + 1 * hh.val = hh.val; omega
  | ⟨2, _⟩ => show win0_0.index t (2 : Fin 4) * 57 + 1 * w.val = w.val; omega
  | ⟨3, _⟩ => show win0_0.index t (3 : Fin 4) * 128 + 1 * cc.val = win0_1.index t (3 : Fin 4) * 128 + 1 * cc.val; omega

/-- WHAT POINT `t` WRITES BACK is block `t` of the pooled array of the argument as the region finds it. -/
theorem flushed_eq (c : Dev nD) (t : Fin cfg0.N) :
    (dats m 0 c).flushed 1 t = ((cfg0.win 1).blk t).view.read (Elt Ideal) (pooledArr (V m c main_arg0)) := by
  rw [Value.flushed1]
  funext y
  obtain ⟨b, i, j, cc, rfl⟩ : ∃ (b : Fin 8) (i j : Fin 7) (cc : Fin 128), y = ix4 b i j cc :=
    ⟨y 0, y 1, y 2, y 3, eq_ix4 (n0 := 8) (n1 := 7) (n2 := 7) (n3 := 128) y⟩
  obtain ⟨-, -, -, -, e4, e5, -, -⟩ := idx_facts t
  show out0_1 (iblk m c 0 t) (ix4 b i j cc) = pooledArr (V m c main_arg0) (((cfg0.win 1).blk t).view.emb (ix4 b i j cc))
  refine (PoolBlock.block_eq _ b i j cc).trans ?_
  show _ = poolAt (V m c main_arg0) (((cfg0.win 1).blk t).view.emb (ix4 b i j cc) 0) (((cfg0.win 1).blk t).view.emb (ix4 b i j cc) 1)
    (((cfg0.win 1).blk t).view.emb (ix4 b i j cc) 2) (((cfg0.win 1).blk t).view.emb (ix4 b i j cc) 3)
  have h1 : (((cfg0.win 1).blk t).view.emb (ix4 b i j cc) 1 : Fin 7) = i :=
    Fin.ext (by show win0_1.index t (1 : Fin 4) * 7 + 1 * i.val = i.val; omega)
  have h2 : (((cfg0.win 1).blk t).view.emb (ix4 b i j cc) 2 : Fin 7) = j :=
    Fin.ext (by show win0_1.index t (2 : Fin 4) * 7 + 1 * j.val = j.val; omega)
  rw [h1, h2]
  exact poolAt_congr (fun hh w => iblk_apply m c t b i j cc hh w) i j

/-- An index of the output array is in point `t`'s block iff each coordinate is in the block's range on its axis. -/
theorem mem_blk (t : Fin cfg0.N) (o : S128x7x7x512.Idx) :
    o ∈ ((cfg0.win 1).blk t).view.set ↔ ∀ a : Fin 4, win0_1.index t a * S8x7x7x128.size a ≤ (o a).val ∧ (o a).val < win0_1.index t a * S8x7x7x128.size a + S8x7x7x128.size a := by
  show o ∈ ((View.whole main_v0).slice (win0_1.rect t)).set ↔ _
  rw [View.set_slice_whole, Rect.mem_set_unit]
  exact Iff.rfl

/-- The 64 output blocks cover the output array: `(n, i, j, c)` is in the block of batch block `n / 8` and channel block
    `c / 128`. -/
theorem cover (o : S128x7x7x512.Idx) : ∃ t : Fin cfg0.N, (cfg0.win 1).flush t = true ∧ o ∈ ((cfg0.win 1).blk t).view.set := by
  have h0 : (o 0).val < 128 := (o 0).isLt
  have h1 : (o 1).val < 7 := (o 1).isLt
  have h2 : (o 2).val < 7 := (o 2).isLt
  have h3 : (o 3).val < 512 := (o 3).isLt
  obtain ⟨t, ht⟩ := idx_onto ⟨(o 0).val / 8, by omega⟩ ⟨(o 3).val / 128, by omega⟩
  have q0 : win0_1.index t (0 : Fin 4) = (o 0).val / 8 := congrFun ht 0
  have q1 : win0_1.index t (1 : Fin 4) = 0 := congrFun ht 1
  have q2 : win0_1.index t (2 : Fin 4) = 0 := congrFun ht 2
  have q3 : win0_1.index t (3 : Fin 4) = (o 3).val / 128 := congrFun ht 3
  refine ⟨t, flush0_1 t, ?_⟩
  rw [mem_blk]
  intro a
  match a with
  | ⟨0, _⟩ => show win0_1.index t (0 : Fin 4) * 8 ≤ (o 0).val ∧ (o 0).val < win0_1.index t (0 : Fin 4) * 8 + 8; omega
  | ⟨1, _⟩ => show win0_1.index t (1 : Fin 4) * 7 ≤ (o 1).val ∧ (o 1).val < win0_1.index t (1 : Fin 4) * 7 + 7; omega
  | ⟨2, _⟩ => show win0_1.index t (2 : Fin 4) * 7 ≤ (o 2).val ∧ (o 2).val < win0_1.index t (2 : Fin 4) * 7 + 7; omega
  | ⟨3, _⟩ => show win0_1.index t (3 : Fin 4) * 128 ≤ (o 3).val ∧ (o 3).val < win0_1.index t (3 : Fin 4) * 128 + 128; omega

/-- THE ARRAY after the run: the pooled array of the argument. -/
theorem final (c : Dev nD) : (dats m 0 c).arrAt 1 cfg0.N = pooledArr (m ((c : Thread nD τ).loc main_arg0)) :=
  (dats m 0 c).arrAt_eq_of_cover 1 (pooledArr (V m c main_arg0)) (fun t _ => flushed_eq m c t) cover

/-- The frame run re-posted: the output array at the pooled array of the argument, the argument unchanged. -/
theorem run : θ_run defs (onTc (τ := τ) (main (F := Ideal))) ⟨m, fun _ => 0, ρ⟩ fun r => ∀ c : Dev nD,
      r.2.mem ((c : Thread nD τ).loc main_v0) = pooledArr (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.PoolValue

end
-- ==== Proof.ReferenceValue.lean ====
/-
  What the reference computes, index by index.

  The reference cuts the array `x : [128, 57, 57, 512]` into seven slabs of rows (8, …, 8, 9 rows), reduces each with
  `max` over its rows, joins the seven results along axis 1 (`rowMaxima`: `[128, 7, 57, 512]`, entry `(n, i, w, c)` the
  maximum of `x (n, ·, w, c)` over the rows of bin `i`), then cuts that value into seven groups of columns, reduces
  each with `max` over its columns and joins those along axis 2. So its result at `(n, i, j, c)` is the maximum over
  the columns `w` of bin `j` of the maximum over the rows `h` of bin `i` of `x (n, h, w, c)`: the pooled array of
  Spec.lean, the same function the kernel's blocks are blocks of.
-/
import proofs.«114033_j47399259078942_2_alg».proof.Proof.Gen.ReferenceIdeal
import proofs.«114033_j47399259078942_2_alg».proof.Proof.Stages

noncomputable section

namespace Cert.ReferenceIdeal.PoolValue

open Cert.ReferenceIdeal Cert.ReferenceIdeal.Gen Idealize.ShloMosaic Idealize.ShloMosaic.TcCoe Idealize.SL.Sem
open Idealize.ShloMosaic.ValueIdx Cert.Pool

/-- The seven slabs' maxima over their rows, each with the reduced axis put back as a unit axis. -/
def rowSlab (x : FVec Ideal S128x57x57x512 .f32) : Fin 7 → FVec Ideal S128x1x57x512 .f32
  | ⟨0, _⟩ => broadcastInDim S128x1x57x512 ![0, 2, 3] bcast_S128x57x512_S128x1x57x512_0_2_3 (Host.reduce (FloatOps.maximumf (F := Ideal)) (extractStridedSlice S128x8x57x512 ![0, 0, 0, 0] x slices_S128x57x57x512_S128x8x57x512_0_0_0_0) (constant (F := Ideal) S_ .f32 0xFF800000#32) reducesTo_S128x8x57x512_S128x57x512_d1 h_S_)
  | ⟨1, _⟩ => broadcastInDim S128x1x57x512 ![0, 2, 3] bcast_S128x57x512_S128x1x57x512_0_2_3 (Host.reduce (FloatOps.maximumf (F := Ideal)) (extractStridedSlice S128x8x57x512 ![0, 8, 0, 0] x slices_S128x57x57x512_S128x8x57x512_0_8_0_0) (constant (F := Ideal) S_ .f32 0xFF800000#32) reducesTo_S128x8x57x512_S128x57x512_d1 h_S_)
  | ⟨2, _⟩ => broadcastInDim S128x1x57x512 ![0, 2, 3] bcast_S128x57x512_S128x1x57x512_0_2_3 (Host.reduce (FloatOps.maximumf (F := Ideal)) (extractStridedSlice S128x8x57x512 ![0, 16, 0, 0] x slices_S128x57x57x512_S128x8x57x512_0_16_0_0) (constant (F := Ideal) S_ .f32 0xFF800000#32) reducesTo_S128x8x57x512_S128x57x512_d1 h_S_)
  | ⟨3, _⟩ => broadcastInDim S128x1x57x512 ![0, 2, 3] bcast_S128x57x512_S128x1x57x512_0_2_3 (Host.reduce (FloatOps.maximumf (F := Ideal)) (extractStridedSlice S128x8x57x512 ![0, 24, 0, 0] x slices_S128x57x57x512_S128x8x57x512_0_24_0_0) (constant (F := Ideal) S_ .f32 0xFF800000#32) reducesTo_S128x8x57x512_S128x57x512_d1 h_S_)
  | ⟨4, _⟩ => broadcastInDim S128x1x57x512 ![0, 2, 3] bcast_S128x57x512_S128x1x57x512_0_2_3 (Host.reduce (FloatOps.maximumf (F := Ideal)) (extractStridedSlice S128x8x57x512 ![0, 32, 0, 0] x slices_S128x57x57x512_S128x8x57x512_0_32_0_0) (constant (F := Ideal) S_ .f32 0xFF800000#32) reducesTo_S128x8x57x512_S128x57x512_d1 h_S_)
  | ⟨5, _⟩ => broadcastInDim S128x1x57x512 ![0, 2, 3] bcast_S128x57x512_S128x1x57x512_0_2_3 (Host.reduce (FloatOps.maximumf (F := Ideal)) (extractStridedSlice S128x8x57x512 ![0, 40, 0, 0] x slices_S128x57x57x512_S128x8x57x512_0_40_0_0) (constant (F := Ideal) S_ .f32 0xFF800000#32) reducesTo_S128x8x57x512_S128x57x512_d1 h_S_)
  | ⟨6, _⟩ => broadcastInDim S128x1x57x512 ![0, 2, 3] bcast_S128x57x512_S128x1x57x512_0_2_3 (Host.reduce (FloatOps.maximumf (F := Ideal)) (extractStridedSlice S128x9x57x512 ![0, 48, 0, 0] x slices_S128x57x57x512_S128x9x57x512_0_48_0_0) (constant (F := Ideal) S_ .f32 0xFF800000#32) reducesTo_S128x9x57x512_S128x57x512_d1 h_S_)

/-- The seven joined along axis 1: the array's maxima over each bin of rows. -/
def rowMaxima (x : FVec Ideal S128x57x57x512 .f32) : FVec Ideal S128x7x57x512 .f32 :=
  concatenate S128x7x57x512 1 [⟨S128x1x57x512, broadcastInDim S128x1x57x512 ![0, 2, 3] bcast_S128x57x512_S128x1x57x512_0_2_3 (Host.reduce (FloatOps.maximumf (F := Ideal)) (extractStridedSlice S128x8x57x512 ![0, 0, 0, 0] x slices_S128x57x57x512_S128x8x57x512_0_0_0_0) (constant (F := Ideal) S_ .f32 0xFF800000#32) reducesTo_S128x8x57x512_S128x57x512_d1 h_S_)⟩, ⟨S128x1x57x512, broadcastInDim S128x1x57x512 ![0, 2, 3] bcast_S128x57x512_S128x1x57x512_0_2_3 (Host.reduce (FloatOps.maximumf (F := Ideal)) (extractStridedSlice S128x8x57x512 ![0, 8, 0, 0] x slices_S128x57x57x512_S128x8x57x512_0_8_0_0) (constant (F := Ideal) S_ .f32 0xFF800000#32) reducesTo_S128x8x57x512_S128x57x512_d1 h_S_)⟩, ⟨S128x1x57x512, broadcastInDim S128x1x57x512 ![0, 2, 3] bcast_S128x57x512_S128x1x57x512_0_2_3 (Host.reduce (FloatOps.maximumf (F := Ideal)) (extractStridedSlice S128x8x57x512 ![0, 16, 0, 0] x slices_S128x57x57x512_S128x8x57x512_0_16_0_0) (constant (F := Ideal) S_ .f32 0xFF800000#32) reducesTo_S128x8x57x512_S128x57x512_d1 h_S_)⟩, ⟨S128x1x57x512, broadcastInDim S128x1x57x512 ![0, 2, 3] bcast_S128x57x512_S128x1x57x512_0_2_3 (Host.reduce (FloatOps.maximumf (F := Ideal)) (extractStridedSlice S128x8x57x512 ![0, 24, 0, 0] x slices_S128x57x57x512_S128x8x57x512_0_24_0_0) (constant (F := Ideal) S_ .f32 0xFF800000#32) reducesTo_S128x8x57x512_S128x57x512_d1 h_S_)⟩, ⟨S128x1x57x512, broadcastInDim S128x1x57x512 ![0, 2, 3] bcast_S128x57x512_S128x1x57x512_0_2_3 (Host.reduce (FloatOps.maximumf (F := Ideal)) (extractStridedSlice S128x8x57x512 ![0, 32, 0, 0] x slices_S128x57x57x512_S128x8x57x512_0_32_0_0) (constant (F := Ideal) S_ .f32 0xFF800000#32) reducesTo_S128x8x57x512_S128x57x512_d1 h_S_)⟩, ⟨S128x1x57x512, broadcastInDim S128x1x57x512 ![0, 2, 3] bcast_S128x57x512_S128x1x57x512_0_2_3 (Host.reduce (FloatOps.maximumf (F := Ideal)) (extractStridedSlice S128x8x57x512 ![0, 40, 0, 0] x slices_S128x57x57x512_S128x8x57x512_0_40_0_0) (constant (F := Ideal) S_ .f32 0xFF800000#32) reducesTo_S128x8x57x512_S128x57x512_d1 h_S_)⟩, ⟨S128x1x57x512, broadcastInDim S128x1x57x512 ![0, 2, 3] bcast_S128x57x512_S128x1x57x512_0_2_3 (Host.reduce (FloatOps.maximumf (F := Ideal)) (extractStridedSlice S128x9x57x512 ![0, 48, 0, 0] x slices_S128x57x57x512_S128x9x57x512_0_48_0_0) (constant (F := Ideal) S_ .f32 0xFF800000#32) reducesTo_S128x9x57x512_S128x57x512_d1 h_S_)⟩] concatenates_S128x1x57x512_S128x1x57x512_S128x1x57x512_S128x1x57x512_S128x1x57x512_S128x1x57x512_S128x1x57x512_S128x7x57x512_d1

/-- `rowMaxima x` at `(n, i, w, c)`: the maximum of `x (n, ·, w, c)` over the rows of bin `i`. -/
theorem rowMaxima_apply (x : FVec Ideal S128x57x57x512 .f32) (n : Fin 128) (i : Fin 7) (w : Fin 57) (c : Fin 512) :
    rowMaxima x (ix4 n i w c) = binMax (fun h => x (ix4 n h w c)) i := by
  unfold rowMaxima
  show concatenate S128x7x57x512 1 (List.ofFn fun k : Fin 7 => (⟨S128x1x57x512, rowSlab x k⟩ : (s : Shape) × (s.Idx → _))) _ (ix4 n i w c) = _
  refine (concatenate_ofFn_apply (t := S128x7x57x512) (s₁ := S128x1x57x512) (1 : Fin 4) (rowSlab x) _ rfl 1 rfl
    (ix4 n i w c) i (by show i.val / 1 = i.val; omega) (ix4 n (0 : Fin 1) w c) (by show (0 : Nat) = i.val % 1; omega)
    (fun a ha => by
      match a with
      | ⟨0, _⟩ => rfl
      | ⟨1, _⟩ => exact absurd rfl ha
      | ⟨2, _⟩ => rfl
      | ⟨3, _⟩ => rfl)).trans ?_
  match i with
  | ⟨0, _⟩ => exact rRowStage (K := 8) 0 (by decide) x slices_S128x57x57x512_S128x8x57x512_0_0_0_0 reducesTo_S128x8x57x512_S128x57x512_d1 (by decide) h_S_ bcast_S128x57x512_S128x1x57x512_0_2_3 n w c (ix4 n (0 : Fin 1) w c) rfl rfl rfl
  | ⟨1, _⟩ => exact rRowStage (K := 8) 8 (by decide) x slices_S128x57x57x512_S128x8x57x512_0_8_0_0 reducesTo_S128x8x57x512_S128x57x512_d1 (by decide) h_S_ bcast_S128x57x512_S128x1x57x512_0_2_3 n w c (ix4 n (0 : Fin 1) w c) rfl rfl rfl
  | ⟨2, _⟩ => exact rRowStage (K := 8) 16 (by decide) x slices_S128x57x57x512_S128x8x57x512_0_16_0_0 reducesTo_S128x8x57x512_S128x57x512_d1 (by decide) h_S_ bcast_S128x57x512_S128x1x57x512_0_2_3 n w c (ix4 n (0 : Fin 1) w c) rfl rfl rfl
  | ⟨3, _⟩ => exact rRowStage (K := 8) 24 (by decide) x slices_S128x57x57x512_S128x8x57x512_0_24_0_0 reducesTo_S128x8x57x512_S128x57x512_d1 (by decide) h_S_ bcast_S128x57x512_S128x1x57x512_0_2_3 n w c (ix4 n (0 : Fin 1) w c) rfl rfl rfl
  | ⟨4, _⟩ => exact rRowStage (K := 8) 32 (by decide) x slices_S128x57x57x512_S128x8x57x512_0_32_0_0 reducesTo_S128x8x57x512_S128x57x512_d1 (by decide) h_S_ bcast_S128x57x512_S128x1x57x512_0_2_3 n w c (ix4 n (0 : Fin 1) w c) rfl rfl rfl
  | ⟨5, _⟩ => exact rRowStage (K := 8) 40 (by decide) x slices_S128x57x57x512_S128x8x57x512_0_40_0_0 reducesTo_S128x8x57x512_S128x57x512_d1 (by decide) h_S_ bcast_S128x57x512_S128x1x57x512_0_2_3 n w c (ix4 n (0 : Fin 1) w c) rfl rfl rfl
  | ⟨6, _⟩ => exact rRowStage (K := 9) 48 (by decide) x slices_S128x57x57x512_S128x9x57x512_0_48_0_0 reducesTo_S128x9x57x512_S128x57x512_d1 (by decide) h_S_ bcast_S128x57x512_S128x1x57x512_0_2_3 n w c (ix4 n (0 : Fin 1) w c) rfl rfl rfl

/-- The seven groups' maxima over their columns, each with the reduced axis put back as a unit axis. -/
def colSlab (x : FVec Ideal S128x57x57x512 .f32) : Fin 7 → FVec Ideal S128x7x1x512 .f32
  | ⟨0, _⟩ => broadcastInDim S128x7x1x512 ![0, 1, 3] bcast_S128x7x512_S128x7x1x512_0_1_3 (Host.reduce (FloatOps.maximumf (F := Ideal)) (extractStridedSlice S128x7x8x512 ![0, 0, 0, 0] (rowMaxima x) slices_S128x7x57x512_S128x7x8x512_0_0_0_0) (constant (F := Ideal) S_ .f32 0xFF800000#32) reducesTo_S128x7x8x512_S128x7x512_d2 h_S_)
  | ⟨1, _⟩ => broadcastInDim S128x7x1x512 ![0, 1, 3] bcast_S128x7x512_S128x7x1x512_0_1_3 (Host.reduce (FloatOps.maximumf (F := Ideal)) (extractStridedSlice S128x7x8x512 ![0, 0, 8, 0] (rowMaxima x) slices_S128x7x57x512_S128x7x8x512_0_0_8_0) (constant (F := Ideal) S_ .f32 0xFF800000#32) reducesTo_S128x7x8x512_S128x7x512_d2 h_S_)
  | ⟨2, _⟩ => broadcastInDim S128x7x1x512 ![0, 1, 3] bcast_S128x7x512_S128x7x1x512_0_1_3 (Host.reduce (FloatOps.maximumf (F := Ideal)) (extractStridedSlice S128x7x8x512 ![0, 0, 16, 0] (rowMaxima x) slices_S128x7x57x512_S128x7x8x512_0_0_16_0) (constant (F := Ideal) S_ .f32 0xFF800000#32) reducesTo_S128x7x8x512_S128x7x512_d2 h_S_)
  | ⟨3, _⟩ => broadcastInDim S128x7x1x512 ![0, 1, 3] bcast_S128x7x512_S128x7x1x512_0_1_3 (Host.reduce (FloatOps.maximumf (F := Ideal)) (extractStridedSlice S128x7x8x512 ![0, 0, 24, 0] (rowMaxima x) slices_S128x7x57x512_S128x7x8x512_0_0_24_0) (constant (F := Ideal) S_ .f32 0xFF800000#32) reducesTo_S128x7x8x512_S128x7x512_d2 h_S_)
  | ⟨4, _⟩ => broadcastInDim S128x7x1x512 ![0, 1, 3] bcast_S128x7x512_S128x7x1x512_0_1_3 (Host.reduce (FloatOps.maximumf (F := Ideal)) (extractStridedSlice S128x7x8x512 ![0, 0, 32, 0] (rowMaxima x) slices_S128x7x57x512_S128x7x8x512_0_0_32_0) (constant (F := Ideal) S_ .f32 0xFF800000#32) reducesTo_S128x7x8x512_S128x7x512_d2 h_S_)
  | ⟨5, _⟩ => broadcastInDim S128x7x1x512 ![0, 1, 3] bcast_S128x7x512_S128x7x1x512_0_1_3 (Host.reduce (FloatOps.maximumf (F := Ideal)) (extractStridedSlice S128x7x8x512 ![0, 0, 40, 0] (rowMaxima x) slices_S128x7x57x512_S128x7x8x512_0_0_40_0) (constant (F := Ideal) S_ .f32 0xFF800000#32) reducesTo_S128x7x8x512_S128x7x512_d2 h_S_)
  | ⟨6, _⟩ => broadcastInDim S128x7x1x512 ![0, 1, 3] bcast_S128x7x512_S128x7x1x512_0_1_3 (Host.reduce (FloatOps.maximumf (F := Ideal)) (extractStridedSlice S128x7x9x512 ![0, 0, 48, 0] (rowMaxima x) slices_S128x7x57x512_S128x7x9x512_0_0_48_0) (constant (F := Ideal) S_ .f32 0xFF800000#32) reducesTo_S128x7x9x512_S128x7x512_d2 h_S_)

/-- The reference's result as the tree of host operations over its argument. -/
def result (x : FVec Ideal S128x57x57x512 .f32) : FVec Ideal S128x7x7x512 .f32 :=
  concatenate S128x7x7x512 2 [⟨S128x7x1x512, broadcastInDim S128x7x1x512 ![0, 1, 3] bcast_S128x7x512_S128x7x1x512_0_1_3 (Host.reduce (FloatOps.maximumf (F := Ideal)) (extractStridedSlice S128x7x8x512 ![0, 0, 0, 0] (rowMaxima x) slices_S128x7x57x512_S128x7x8x512_0_0_0_0) (constant (F := Ideal) S_ .f32 0xFF800000#32) reducesTo_S128x7x8x512_S128x7x512_d2 h_S_)⟩, ⟨S128x7x1x512, broadcastInDim S128x7x1x512 ![0, 1, 3] bcast_S128x7x512_S128x7x1x512_0_1_3 (Host.reduce (FloatOps.maximumf (F := Ideal)) (extractStridedSlice S128x7x8x512 ![0, 0, 8, 0] (rowMaxima x) slices_S128x7x57x512_S128x7x8x512_0_0_8_0) (constant (F := Ideal) S_ .f32 0xFF800000#32) reducesTo_S128x7x8x512_S128x7x512_d2 h_S_)⟩, ⟨S128x7x1x512, broadcastInDim S128x7x1x512 ![0, 1, 3] bcast_S128x7x512_S128x7x1x512_0_1_3 (Host.reduce (FloatOps.maximumf (F := Ideal)) (extractStridedSlice S128x7x8x512 ![0, 0, 16, 0] (rowMaxima x) slices_S128x7x57x512_S128x7x8x512_0_0_16_0) (constant (F := Ideal) S_ .f32 0xFF800000#32) reducesTo_S128x7x8x512_S128x7x512_d2 h_S_)⟩, ⟨S128x7x1x512, broadcastInDim S128x7x1x512 ![0, 1, 3] bcast_S128x7x512_S128x7x1x512_0_1_3 (Host.reduce (FloatOps.maximumf (F := Ideal)) (extractStridedSlice S128x7x8x512 ![0, 0, 24, 0] (rowMaxima x) slices_S128x7x57x512_S128x7x8x512_0_0_24_0) (constant (F := Ideal) S_ .f32 0xFF800000#32) reducesTo_S128x7x8x512_S128x7x512_d2 h_S_)⟩, ⟨S128x7x1x512, broadcastInDim S128x7x1x512 ![0, 1, 3] bcast_S128x7x512_S128x7x1x512_0_1_3 (Host.reduce (FloatOps.maximumf (F := Ideal)) (extractStridedSlice S128x7x8x512 ![0, 0, 32, 0] (rowMaxima x) slices_S128x7x57x512_S128x7x8x512_0_0_32_0) (constant (F := Ideal) S_ .f32 0xFF800000#32) reducesTo_S128x7x8x512_S128x7x512_d2 h_S_)⟩, ⟨S128x7x1x512, broadcastInDim S128x7x1x512 ![0, 1, 3] bcast_S128x7x512_S128x7x1x512_0_1_3 (Host.reduce (FloatOps.maximumf (F := Ideal)) (extractStridedSlice S128x7x8x512 ![0, 0, 40, 0] (rowMaxima x) slices_S128x7x57x512_S128x7x8x512_0_0_40_0) (constant (F := Ideal) S_ .f32 0xFF800000#32) reducesTo_S128x7x8x512_S128x7x512_d2 h_S_)⟩, ⟨S128x7x1x512, broadcastInDim S128x7x1x512 ![0, 1, 3] bcast_S128x7x512_S128x7x1x512_0_1_3 (Host.reduce (FloatOps.maximumf (F := Ideal)) (extractStridedSlice S128x7x9x512 ![0, 0, 48, 0] (rowMaxima x) slices_S128x7x57x512_S128x7x9x512_0_0_48_0) (constant (F := Ideal) S_ .f32 0xFF800000#32) reducesTo_S128x7x9x512_S128x7x512_d2 h_S_)⟩] concatenates_S128x7x1x512_S128x7x1x512_S128x7x1x512_S128x7x1x512_S128x7x1x512_S128x7x1x512_S128x7x1x512_S128x7x7x512_d2

/-- The reference's result is the pooled array of its argument. -/
theorem result_eq (x : FVec Ideal S128x57x57x512 .f32) : result x = pooledArr x := by
  funext o
  obtain ⟨n, i, j, c, rfl⟩ : ∃ (n : Fin 128) (i j : Fin 7) (c : Fin 512), o = ix4 n i j c := ⟨o 0, o 1, o 2, o 3, eq_ix4 o⟩
  rw [pooledArr_ix4]
  unfold result
  show concatenate S128x7x7x512 2 (List.ofFn fun k : Fin 7 => (⟨S128x7x1x512, colSlab x k⟩ : (s : Shape) × (s.Idx → _))) _ (ix4 n i j c) = _
  refine (concatenate_ofFn_apply (t := S128x7x7x512) (s₁ := S128x7x1x512) (2 : Fin 4) (colSlab x) _ rfl 1 rfl
    (ix4 n i j c) j (by show j.val / 1 = j.val; omega) (ix4 n i (0 : Fin 1) c) (by show (0 : Nat) = j.val % 1; omega)
    (fun a ha => by
      match a with
      | ⟨0, _⟩ => rfl
      | ⟨1, _⟩ => rfl
      | ⟨2, _⟩ => exact absurd rfl ha
      | ⟨3, _⟩ => rfl)).trans ?_
  unfold poolAt
  rw [← show (fun w : Fin 57 => rowMaxima x (ix4 n i w c)) = fun w => binMax (fun h => x (ix4 n h w c)) i from
    funext fun w => rowMaxima_apply x n i w c]
  match j with
  | ⟨0, _⟩ => exact rColStage (K := 8) 0 (by decide) (rowMaxima x) slices_S128x7x57x512_S128x7x8x512_0_0_0_0 reducesTo_S128x7x8x512_S128x7x512_d2 (by decide) h_S_ bcast_S128x7x512_S128x7x1x512_0_1_3 n i c (ix4 n i (0 : Fin 1) c) rfl rfl rfl
  | ⟨1, _⟩ => exact rColStage (K := 8) 8 (by decide) (rowMaxima x) slices_S128x7x57x512_S128x7x8x512_0_0_8_0 reducesTo_S128x7x8x512_S128x7x512_d2 (by decide) h_S_ bcast_S128x7x512_S128x7x1x512_0_1_3 n i c (ix4 n i (0 : Fin 1) c) rfl rfl rfl
  | ⟨2, _⟩ => exact rColStage (K := 8) 16 (by decide) (rowMaxima x) slices_S128x7x57x512_S128x7x8x512_0_0_16_0 reducesTo_S128x7x8x512_S128x7x512_d2 (by decide) h_S_ bcast_S128x7x512_S128x7x1x512_0_1_3 n i c (ix4 n i (0 : Fin 1) c) rfl rfl rfl
  | ⟨3, _⟩ => exact rColStage (K := 8) 24 (by decide) (rowMaxima x) slices_S128x7x57x512_S128x7x8x512_0_0_24_0 reducesTo_S128x7x8x512_S128x7x512_d2 (by decide) h_S_ bcast_S128x7x512_S128x7x1x512_0_1_3 n i c (ix4 n i (0 : Fin 1) c) rfl rfl rfl
  | ⟨4, _⟩ => exact rColStage (K := 8) 32 (by decide) (rowMaxima x) slices_S128x7x57x512_S128x7x8x512_0_0_32_0 reducesTo_S128x7x8x512_S128x7x512_d2 (by decide) h_S_ bcast_S128x7x512_S128x7x1x512_0_1_3 n i c (ix4 n i (0 : Fin 1) c) rfl rfl rfl
  | ⟨5, _⟩ => exact rColStage (K := 8) 40 (by decide) (rowMaxima x) slices_S128x7x57x512_S128x7x8x512_0_0_40_0 reducesTo_S128x7x8x512_S128x7x512_d2 (by decide) h_S_ bcast_S128x7x512_S128x7x1x512_0_1_3 n i c (ix4 n i (0 : Fin 1) c) rfl rfl rfl
  | ⟨6, _⟩ => exact rColStage (K := 9) 48 (by decide) (rowMaxima x) slices_S128x7x57x512_S128x7x9x512_0_0_48_0 reducesTo_S128x7x9x512_S128x7x512_d2 (by decide) h_S_ bcast_S128x7x512_S128x7x1x512_0_1_3 n i c (ix4 n i (0 : Fin 1) c) rfl rfl rfl

end Cert.ReferenceIdeal.PoolValue

end
-- ==== Proof.RefResult.lean ====
/-
  The reference's run ends with its result buffer at the pooled array of its argument: the run's composed term for the
  result is, spelt out, the tree of host operations `result` of ReferenceValue.lean, which is the pooled array.
-/
import proofs.«114033_j47399259078942_2_alg».proof.Proof.RefRun
import proofs.«114033_j47399259078942_2_alg».proof.Proof.ReferenceValue

noncomputable section

namespace Cert.ReferenceIdeal.PoolValue

open Cert.ReferenceIdeal Cert.ReferenceIdeal.Gen Idealize.ShloMosaic Idealize.ShloMosaic.TcCoe Idealize.SL.Sem Cert.Pool

/-- The run's term for the result buffer is the tree of host operations of the argument's launch contents. -/
theorem res_eq (m : (ℓ : Loc nD τ sig) → Buf (Elt Ideal) ℓ) (c : Dev nD) :
    Cert.ReferenceIdeal.RunP.res_main_v43 m c = result (m ((c.tc : Thread nD τ).loc main_arg0)) := by
  unfold Cert.ReferenceIdeal.RunP.res_main_v43; rfl

/-- Every weakly fair execution of the reference terminates with the result buffer at the pooled array of the argument and
    the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = pooledArr (m ((c.tc : Thread nD τ).loc main_arg0))
      ∧ r.2.mem ((c.tc : Thread nD τ).loc main_arg0) = m ((c.tc : Thread nD τ).loc main_arg0) :=
  (θ_run defs _ _).mono (fun _ h c => ⟨(h c).1.trans ((res_eq m c).trans (result_eq _)), (h c).2⟩)
    (Cert.ReferenceIdeal.RunP.run (F := Ideal) m ρ)

end Cert.ReferenceIdeal.PoolValue

end
-- ==== Proof.lean ====
/-
  The certificate of the adaptive max pooling kernel against its jnp reference: `[128, 57, 57, 512] → [128, 7, 7, 512]`,
  each of the two spatial axes of 57 points cut into the seven bins 8, 8, 8, 8, 8, 8, 9.

  Both programs take, at `(n, i, j, c)`, the maximum over the columns of bin `j` of the maxima over the rows of bin `i`
  of `x (n, ·, ·, c)`, each maximum a fold of `max` from the word `0xFF800000` (Proof/Spec.lean: `pooledArr`). The
  kernel does it block by block over a 16 × 4 grid of (batch, channel) blocks, and since the pooled value reads the
  argument only along `(n, ·, ·, c)` the blocks it writes back are the blocks of the pooled array of the whole argument
  (Proof/KernelBlock.lean, Proof/KernelValue.lean); the reference does it on the whole array (Proof/ReferenceValue.lean,
  Proof/RefResult.lean). The two nest their reductions in the same order — rows, then columns — so the two results are
  the same function of the argument with no law of `max` used beyond what identifies a reduction with a fold; in
  particular the precondition (finite inputs) is never opened. The ideal pass rewrote nothing, so `preserves` is
  trivial; the kernels' frames are the generated ones, the reference's frame is its run with the result dropped.
-/
import proofs.«114033_j47399259078942_2_alg».proof.Defs
import proofs.«114033_j47399259078942_2_alg».proof.Proof.Gen.Kernel
import proofs.«114033_j47399259078942_2_alg».proof.Proof.Gen.Kernel.Skeleton
import proofs.«114033_j47399259078942_2_alg».proof.Proof.Gen.Kernel.Launch
import proofs.«114033_j47399259078942_2_alg».proof.Proof.Gen.Kernel.Points
import proofs.«114033_j47399259078942_2_alg».proof.Proof.Gen.Kernel.Frame
import proofs.«114033_j47399259078942_2_alg».proof.Proof.Gen.KernelIdeal
import proofs.«114033_j47399259078942_2_alg».proof.Proof.Gen.KernelIdeal.Skeleton
import proofs.«114033_j47399259078942_2_alg».proof.Proof.Gen.KernelIdeal.Launch
import proofs.«114033_j47399259078942_2_alg».proof.Proof.Gen.KernelIdeal.Points
import proofs.«114033_j47399259078942_2_alg».proof.Proof.Gen.KernelIdeal.Frame
import proofs.«114033_j47399259078942_2_alg».proof.Proof.Gen.KernelIdeal.Value
import proofs.«114033_j47399259078942_2_alg».proof.Proof.Gen.ReferenceIdeal
import proofs.«114033_j47399259078942_2_alg».proof.Proof.Gen.Pre_finite_inputs
import proofs.«114033_j47399259078942_2_alg».proof.Proof.KernelValue
import proofs.«114033_j47399259078942_2_alg».proof.Proof.RefResult
import Idealize.ShloMosaic.Adequacy
import Idealize.ShloMosaic.Init

noncomputable section

namespace Cert.Proof

open Idealize.ShloMosaic Idealize.SL.Sem Cert.Pool

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.PoolValue.run m ρ)

/-- The ideal pass rewrote no operation. -/
theorem preserves : Cert.preserves_Kernel_KernelIdeal := trivial

/-- Both programs end with their result at the pooled array of the argument — the kernel's of its own argument, the
    reference's of an argument that agrees with it. -/
theorem algebraic : Cert.algebraic_KernelIdeal_ReferenceIdeal := by
  intro m ρ m' ρ' _ hagree
  refine ⟨fun c => pooledArr (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.PoolValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
